-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v31_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v31_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S8000x128 : Shape := ⟨2, ![8000, 128]⟩
abbrev S_ : Shape := ⟨0, ![]⟩
abbrev S800000x1 : Shape := ⟨2, ![800000, 1]⟩
abbrev S800000x8x16 : Shape := ⟨3, ![800000, 8, 16]⟩
abbrev S800000x8x1 : Shape := ⟨3, ![800000, 8, 1]⟩
abbrev S500x8x16 : Shape := ⟨3, ![500, 8, 16]⟩
abbrev S500x8x1 : Shape := ⟨3, ![500, 8, 1]⟩
abbrev S500x8 : Shape := ⟨2, ![500, 8]⟩
abbrev S50000x8x16 : Shape := ⟨3, ![50000, 8, 16]⟩
abbrev S50000x8x1 : Shape := ⟨3, ![50000, 8, 1]⟩

abbrev nBuf : Space → Nat
  | .hbm => 67
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S1x128, .f32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x8x16, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S800000x8x16, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x8x16, .f32⟩
  | .hbm, ⟨50, _⟩ => ⟨S800000x8x16, .f32⟩
  | .hbm, ⟨51, _⟩ => ⟨S800000x8x16, .f32⟩
  | .hbm, ⟨52, _⟩ => ⟨S800000x8x16, .f32⟩
  | .hbm, ⟨53, _⟩ => ⟨S800000x8x1, .f32⟩
  | .hbm, ⟨54, _⟩ => ⟨S_, .f32⟩
  | .hbm, ⟨55, _⟩ => ⟨S50000x8x16, .f32⟩
  | .hbm, ⟨56, _⟩ => ⟨S800000x1, .i32⟩
  | .hbm, ⟨57, _⟩ => ⟨S50000x8x16, .f32⟩
  | .hbm, ⟨58, _⟩ => ⟨S_, .f32⟩
  | .hbm, ⟨59, _⟩ => ⟨S50000x8x1, .f32⟩
  | .hbm, ⟨60, _⟩ => ⟨S800000x1, .i32⟩
  | .hbm, ⟨61, _⟩ => ⟨S50000x8x1, .f32⟩
  | .hbm, ⟨62, _⟩ => ⟨S_, .f32⟩
  | .hbm, ⟨63, _⟩ => ⟨S50000x8x1, .f32⟩
  | .hbm, ⟨64, _⟩ => ⟨S50000x8x1, .f32⟩
  | .hbm, ⟨65, _⟩ => ⟨S50000x8x16, .f32⟩
  | .hbm, ⟨66, _⟩ => ⟨S50000x8x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S8000x128, .f32⟩
  | .local _ .vmem, ⟨15, _⟩ => ⟨S8000x128, .f32⟩
  | .local _ .vmem, ⟨16, _⟩ => ⟨S128x128, .f32⟩
  | .local _ .vmem, ⟨17, _⟩ => ⟨S1x128, .f32⟩
  | .local _ .vmem, ⟨18, _⟩ => ⟨S8000x128, .f32⟩
  | .local _ .vmem, ⟨19, _⟩ => ⟨S8000x128, .f32⟩
  | .local _ .vmem, ⟨20, _⟩ => ⟨S500x8x16, .f32⟩
  | .local _ .vmem, ⟨21, _⟩ => ⟨S500x8x16, .f32⟩
  | .local _ .vmem, ⟨22, _⟩ => ⟨S500x8x16, .f32⟩
  | .local _ .vmem, ⟨23, _⟩ => ⟨S500x8x16, .f32⟩
  | .local _ .vmem, ⟨24, _⟩ => ⟨S500x8x16, .f32⟩
  | .local _ .vmem, ⟨25, _⟩ => ⟨S500x8x16, .f32⟩
  | .local _ .vmem, ⟨26, _⟩ => ⟨S500x8x16, .f32⟩
  | .local _ .vmem, ⟨27, _⟩ => ⟨S500x8x16, .f32⟩
  | .local _ .vmem, ⟨28, _⟩ => ⟨S500x8x16, .f32⟩
  | .local _ .vmem, ⟨29, _⟩ => ⟨S500x8x16, .f32⟩
  | .local _ .vmem, ⟨30, _⟩ => ⟨S500x8x16, .f32⟩
  | .local _ .vmem, ⟨31, _⟩ => ⟨S500x8x16, .f32⟩
  | .local _ .vmem, ⟨32, _⟩ => ⟨S500x8x1, .f32⟩
  | .local _ .vmem, ⟨33, _⟩ => ⟨S500x8x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1600], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S500x8x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S500x8x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S500x8x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S500x8x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S500x8x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S500x8x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S500x8x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S8000x128_S8000x128_0_0 : ∀ a, (![0, 0] : Fin 2 → Nat) a + S8000x128.size a ≤ S8000x128.size a
  h_S8000x128 : 0 < S8000x128.numel
  broadcasts_S1x128_S8000x128 : S1x128.Broadcasts S8000x128
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x128_S800000x8x16 : S800000x128.ShapeCasts S800000x8x16
  inb_S500x8x16_S500x8x16_0_0_0 : ∀ a, (![0, 0, 0] : Fin 3 → Nat) a + S500x8x16.size a ≤ S500x8x16.size a
  h_S500x8x16 : 0 < S500x8x16.numel
  shapeCasts_S500x8x16_S500x8x16 : S500x8x16.ShapeCasts S500x8x16
  reduces_S500x8x16_S500x8 : S500x8x16.Reduces [2] S500x8
  shapeCasts_S500x8_S500x8x1 : S500x8.ShapeCasts S500x8x1
  broadcasts_S500x8x1_S500x8x16 : S500x8x1.Broadcasts S500x8x16
  inb_S500x8x1_S500x8x1_0_0_0 : ∀ a, (![0, 0, 0] : Fin 3 → Nat) a + S500x8x1.size a ≤ S500x8x1.size a
  h_S500x8x1 : 0 < S500x8x1.numel
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S5000x128_S128x128_S5000x128_1_0_0_1_n_n_wf : DotDims.WF S5000x128 S128x128 S5000x128 [1] [0] [0] [1] [] []
  dot_S8000x128_S128x128_S8000x128_1_0_0_1_n_n_wf : DotDims.WF S8000x128 S128x128 S8000x128 [1] [0] [0] [1] [] []
  gather_S50000x128_S800000x1_S800000x128_1_0_n_n_0_1_1128_wf : GatherDims.WF S50000x128 S800000x1 S800000x128 [1] [0] [] [0] [] 1 ![1, 128]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S500x8x16.size a ≤ S800000x8x16.size a
  hwx2_0 : ∀ i : grid2.Coords, EltTy.bits .f32 = 32 ∨ (Rect.block (s := S800000x8x16) S500x8x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S500x8x16.size a ≤ S800000x8x16.size a
  hwx2_1 : ∀ i : grid2.Coords, EltTy.bits .f32 = 32 ∨ (Rect.block (s := S800000x8x16) S500x8x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S500x8x16.size a ≤ S800000x8x16.size a
  hwx2_2 : ∀ i : grid2.Coords, EltTy.bits .f32 = 32 ∨ (Rect.block (s := S800000x8x16) S500x8x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S500x8x16.size a ≤ S800000x8x16.size a
  hwx2_3 : ∀ i : grid2.Coords, EltTy.bits .f32 = 32 ∨ (Rect.block (s := S800000x8x16) S500x8x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S500x8x16.size a ≤ S800000x8x16.size a
  hwx2_4 : ∀ i : grid2.Coords, EltTy.bits .f32 = 32 ∨ (Rect.block (s := S800000x8x16) S500x8x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S500x8x16.size a ≤ S800000x8x16.size a
  hwx2_5 : ∀ i : grid2.Coords, EltTy.bits .f32 = 32 ∨ (Rect.block (s := S800000x8x16) S500x8x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S500x8x1.size a ≤ S800000x8x1.size a
  hwx2_6 : ∀ i : grid2.Coords, EltTy.bits .f32 = 32 ∨ (Rect.block (s := S800000x8x1) S500x8x1.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S500x8x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S500x8x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S500x8x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S500x8x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_0) S500x8x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31_1) S500x8x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v31_2) S500x8x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S800000x8x16, .f32⟩
  | .hbm, ⟨51, _⟩ => ⟨S_, .f32⟩
  | .hbm, ⟨52, _⟩ => ⟨S800000x8x16, .f32⟩
  | .hbm, ⟨53, _⟩ => ⟨S800000x8x16, .f32⟩
  | .hbm, ⟨54, _⟩ => ⟨S800000x8x16, .f32⟩
  | .hbm, ⟨55, _⟩ => ⟨S_, .f32⟩
  | .hbm, ⟨56, _⟩ => ⟨S800000x8, .f32⟩
  | .hbm, ⟨57, _⟩ => ⟨S800000x8x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S800000x8x1, .f32⟩
  | .hbm, ⟨62, _⟩ => ⟨S800000x8x1, .f32⟩
  | .hbm, ⟨63, _⟩ => ⟨S_, .f32⟩
  | .hbm, ⟨64, _⟩ => ⟨S800000x8x1, .f32⟩
  | .hbm, ⟨65, _⟩ => ⟨S800000x8x1, .f32⟩
  | .hbm, ⟨66, _⟩ => ⟨S800000x8x1, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x8x16, .f32⟩
  | .hbm, ⟨76, _⟩ => ⟨S800000x8x16, .f32⟩
  | .hbm, ⟨77, _⟩ => ⟨S800000x8x16, .f32⟩
  | .hbm, ⟨78, _⟩ => ⟨S_, .f32⟩
  | .hbm, ⟨79, _⟩ => ⟨S50000x8x16, .f32⟩
  | .hbm, ⟨80, _⟩ => ⟨S800000x1, .i32⟩
  | .hbm, ⟨81, _⟩ => ⟨S50000x8x16, .f32⟩
  | .hbm, ⟨82, _⟩ => ⟨S_, .f32⟩
  | .hbm, ⟨83, _⟩ => ⟨S50000x8x1, .f32⟩
  | .hbm, ⟨84, _⟩ => ⟨S800000x1, .i32⟩
  | .hbm, ⟨85, _⟩ => ⟨S50000x8x1, .f32⟩
  | .hbm, ⟨86, _⟩ => ⟨S_, .f32⟩
  | .hbm, ⟨87, _⟩ => ⟨S50000x8x1, .f32⟩
  | .hbm, ⟨88, _⟩ => ⟨S50000x8x1, .f32⟩
  | .hbm, ⟨89, _⟩ => ⟨S50000x8x16, .f32⟩
  | .hbm, ⟨90, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.Spec.lean ====
/-
  WHAT BOTH PROGRAMS COMPUTE, index by index over the extended reals: one graph-attention layer over 50000 nodes and
  800000 edges with 8 heads of width 16.

  * dense: a dense layer over every row of a table, entry (p, j) = (sum over k of x (p, k) * W (k, j)) + b j.
  * lane: the feature h * 16 + d that head h, coordinate d occupies when a row of 128 features is read as 8 heads of 16.
  * rowOf: the node a (normalised) index column picks for edge e, read signed and clamped into [0, 49999] as a gather
    clamps it.
  * pick T ni: the rows of a node table T picked per edge by ni and read as heads; heads T: an edge table read as heads.
  * score: K[src] * Q[dst] * (1/4) * Ep, per (edge, head, coordinate).
  * gate: exp of the sum of a head's scores clamped into [-5, 5], per (edge, head).
  * weighted: V[src] * gate, per (edge, head, coordinate).
  The reference divides by 4 where the kernel multiplies by 1/4; quarter says these agree on every extended real
  (infinities included), which is the only arithmetic law the equivalence needs. Sums are never regrouped.
-/
import Idealize.ShloMosaic.PureOps.Ideal
import Idealize.ShloMosaic.PureOps.Ideal.Laws
import Idealize.ShloMosaic.Lib.ValueIdx
import proofs.«103258_j12987981103701_2_alg».proof.Proof.LibDense

noncomputable section

namespace Cert.Attn

open Idealize.ShloMosaic Idealize.ShloMosaic.ValueIdx
open scoped BigOperators

/-- Node tables [50000, 128], edge tables [800000, 128], per-head edge arrays [800000, 8, 16] and [800000, 8, 1], a
    weight matrix [128, 128], an index column [800000, 1]. -/
abbrev NodeTab : Shape := ⟨2, ![50000, 128]⟩
abbrev EdgeTab : Shape := ⟨2, ![800000, 128]⟩
abbrev EdgeHeads : Shape := ⟨3, ![800000, 8, 16]⟩
abbrev EdgeGate : Shape := ⟨3, ![800000, 8, 1]⟩
abbrev Weights : Shape := ⟨2, ![128, 128]⟩
abbrev IdxCol : Shape := ⟨2, ![800000, 1]⟩

/-- A dense layer over every row: entry (p, j) is (sum over k of x (p, k) * W (k, j)) + b j. -/
def dense {R : ℕ} (x : (⟨2, ![R, 128]⟩ : Shape).Idx → EReal) (W : Weights.Idx → EReal) (b : Fin 128 → EReal) :
    (⟨2, ![R, 128]⟩ : Shape).Idx → EReal :=
  fun i => Cert.Dense.affine W b (fun k => x (ix2 (i 0) k)) (i 1)

/-- Head h, coordinate d of a row of 128 features. -/
def lane (h : Fin 8) (d : Fin 16) : Fin 128 := ⟨h.val * 16 + d.val, by omega⟩

/-- The node an index column picks for edge e: the entry read signed and clamped into [0, 49999]. -/
def rowOf (ni : IVec IdxCol 32) (e : Fin 800000) : Fin 50000 :=
  ⟨min (ni (ix2 e (0 : Fin 1))).toInt.toNat 49999, by omega⟩

/-- The rows of a node table picked per edge, read as heads. -/
def pick (T : NodeTab.Idx → EReal) (ni : IVec IdxCol 32) : EdgeHeads.Idx → EReal :=
  fun i => T (ix2 (rowOf ni (i 0)) (lane (i 1) (i 2)))

/-- An edge table read as heads. -/
def heads (T : EdgeTab.Idx → EReal) : EdgeHeads.Idx → EReal :=
  fun i => T (ix2 (i 0) (lane (i 1) (i 2)))

/-- The value of the word for 0.25, kept as the word. -/
abbrev quarterWord : EReal := Ideal.ofBits .f32 0x3E800000#32

/-- The gated score K[src] * Q[dst] * (1/4) * Ep at (edge, head, coordinate). -/
def score (K Q : NodeTab.Idx → EReal) (Ep : EdgeTab.Idx → EReal) (ns nd : IVec IdxCol 32) : EdgeHeads.Idx → EReal :=
  fun i => pick K ns i * pick Q nd i * quarterWord * heads Ep i

/-- The attention weight at (edge, head): exp of the head's summed scores clamped into [-5, 5] (the bounds kept as
    their words). -/
def gate (S : EdgeHeads.Idx → EReal) : EdgeGate.Idx → EReal :=
  fun i => Ideal.exp (min (Ideal.ofBits .f32 0x40A00000#32)
    (max (Ideal.ofBits .f32 0xC0A00000#32) (∑ d : Fin 16, S (ix3 (i 0) (i 1) d))))

/-- The weighted values V[src] * gate at (edge, head, coordinate). -/
def weighted (V : NodeTab.Idx → EReal) (ns : IVec IdxCol 32) (g : EdgeGate.Idx → EReal) : EdgeHeads.Idx → EReal :=
  fun i => pick V ns i * g (ix3 (i 0) (i 1) (0 : Fin 1))

/-- The word 0x40800000 denotes 4 and the word 0x3E800000 denotes 1/4. -/
theorem ofBits_four : Ideal.ofBits .f32 0x40800000#32 = ((4 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

/-- Dividing by the word for 4 is multiplying by the word for 1/4, on every extended real. -/
theorem quarter (x : EReal) : Ideal.div x (Ideal.ofBits .f32 0x40800000#32) = x * quarterWord := by
  rw [ofBits_four, Ideal.div_coe (by norm_num : (4 : ℝ) ≠ 0), quarterWord, ofBits_quarter]

/-- A rank-3 index with known coordinates is the index built from them. -/
theorem ix3_of_val {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => Fin.ext (by
    match d with
    | ⟨0, _⟩ => exact h0
    | ⟨1, _⟩ => exact h1
    | ⟨2, _⟩ => exact h2)

end Cert.Attn

end
-- ==== Proof.HostReads.lean ====
/-
  THE HOST OPERATIONS BETWEEN THE REGIONS, read at an index. Between its three kernel regions the program
    * views each bias vector [128] as a row [1, 128] (a reshape: entry (0, j) is entry j),
    * normalises the source and destination indices (a negative index i reads as i + 50000) and sets them up as a
      column [800000, 1],
    * gathers, for every edge, a row of a node table [50000, 128] by such a column (the start index read signed and
      clamped into [0, 49999]) and views the gathered table [800000, 128] as heads [800000, 8, 16] (entry (e, h, d) is
      entry (e, 16 h + d)),
    * and, after the last region, scatter-adds the weighted values and the gates onto the destination nodes and divides.
  No host operation and no region overwrites an argument, so an argument buffer read at any boundary is the launch memory.
-/
import proofs.«103258_j12987981103701_2_alg».proof.Proof.Gen.KernelIdeal.Frame
import proofs.«103258_j12987981103701_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostReads

open Idealize.ShloMosaic Idealize.ShloMosaic.ValueIdx Idealize.ShloMosaic.TcCoe Idealize.SL.Sem Idealize.ShloMosaic.StableHlo
open Cert.KernelIdeal Cert.KernelIdeal.Gen Cert.Attn

/-- An index vector normalised (a negative entry i reads as i + 50000) and set up as a column. -/
def wrapIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The program's last stretch: the weighted values and the gates summed onto their destination nodes, and the
    quotient of the two sums (the second plus the word for 1e-6, spread over the 16 coordinates). -/
def tail (dst : IVec S800000 32) (wv : FVec Ideal S800000x8x16 .f32) (g : FVec Ideal S800000x8x1 .f32) : FVec Ideal S50000x8x16 .f32 :=
  Host.divf (F := Ideal)
    (Host.scatterAdd scatter_S50000x8x16_S800000x1_S800000x8x16_12_0_0_1
      (broadcastInDim S50000x8x16 ![] bcast_S_S50000x8x16 (constant (F := Ideal) S_ .f32 0x00000000#32))
      (broadcastInDim S800000x1 ![0] bcast_S800000_S800000x1_0 dst) wv)
    (broadcastInDim S50000x8x16 ![0, 1, 2] bcast_S50000x8x1_S50000x8x16_0_1_2
      (addf (F := Ideal)
        (Host.scatterAdd scatter_S50000x8x1_S800000x1_S800000x8x1_12_0_0_1
          (broadcastInDim S50000x8x1 ![] bcast_S_S50000x8x1 (constant (F := Ideal) S_ .f32 0x00000000#32))
          (broadcastInDim S800000x1 ![0] bcast_S800000_S800000x1_0 dst) g)
        (broadcastInDim S50000x8x1 ![] bcast_S_S50000x8x1 (constant (F := Ideal) S_ .f32 0x358637BD#32))))

/-- A row gather read at (e, j): row (rowOf ni e) of the table, column j — the start index read signed and clamped into
    [0, 49999] on the collapsed row axis, the column axis an offset axis. -/
theorem gather_row {α : Type} (T : S50000x128.Idx → α) (ni : IVec S800000x1 32) (e : Fin 800000) (j : Fin 128) :
    Host.gather gather_S50000x128_S800000x1_S800000x128_1_0_n_n_0_1_1128 T ni (ix2 e j) = T (ix2 (rowOf ni e) j) := by
  unfold Host.gather
  refine congrArg T (Cert.Dense.ix2_of_val (n0 := 50000) (n1 := 128) _ _ _ ?_ ?_)
  · show gather_S50000x128_S800000x1_S800000x128_1_0_n_n_0_1_1128.start (ix2 e j) ni 0 + gather_S50000x128_S800000x1_S800000x128_1_0_n_n_0_1_1128.batchCoord (ix2 e j) 0 + gather_S50000x128_S800000x1_S800000x128_1_0_n_n_0_1_1128.offCoord (ix2 e j) 0 = (rowOf ni e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S800000x1_S800000x128_1_0_n_n_0_1_1128.startIndexMap from List.mem_singleton.mpr rfl)]
    have hsi : gather_S50000x128_S800000x1_S800000x128_1_0_n_n_0_1_1128.siIdx (ix2 e j) ⟨List.idxOf (0 : Fin 2) gather_S50000x128_S800000x1_S800000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · show gather_S50000x128_S800000x1_S800000x128_1_0_n_n_0_1_1128.start (ix2 e j) ni 1 + gather_S50000x128_S800000x1_S800000x128_1_0_n_n_0_1_1128.batchCoord (ix2 e j) 1 + gather_S50000x128_S800000x1_S800000x128_1_0_n_n_0_1_1128.offCoord (ix2 e j) 1 = j.val
    rw [GatherDims.batchCoord_eq_zero _ _ _ List.not_mem_nil]
    have hs : gather_S50000x128_S800000x1_S800000x128_1_0_n_n_0_1_1128.start (ix2 e j) ni 1 = 0 := by
      unfold GatherDims.start
      rw [dif_neg (by decide)]
    have ho : gather_S50000x128_S800000x1_S800000x128_1_0_n_n_0_1_1128.offCoord (ix2 e j) 1 = j.val := by
      unfold GatherDims.offCoord
      rw [dif_pos (by decide)]
      rfl
    omega

/-- A table [800000, 128] viewed as heads: entry (e, h, d) is entry (e, 16 h + d). -/
theorem reshape_heads {α : Type} (T : S800000x128.Idx → α) (e : Fin 800000) (hh : Fin 8) (d : Fin 16) :
    shapeCast S800000x8x16 T shapeCasts_S800000x128_S800000x8x16 (ix3 e hh d) = T (ix2 e (lane hh d)) :=
  shapeCast_apply T shapeCasts_S800000x128_S800000x8x16 (ix3 e hh d) (ix2 e (lane hh d)) (by
    rw [Shape.rowMajor_val_two, Shape.rowMajor_val_three]
    show e.val * 128 + (hh.val * 16 + d.val) = (e.val * 8 + hh.val) * 16 + d.val
    omega)

/-- A vector [128] viewed as a row [1, 128]: entry (0, j) is entry j. -/
theorem reshape_row {α : Type} (b : S128.Idx → α) (j : Fin 128) :
    shapeCast S1x128 b shapeCasts_S128_S1x128 (ix2 (0 : Fin 1) j) = b (ix1 j) :=
  shapeCast_apply b shapeCasts_S128_S1x128 (ix2 (0 : Fin 1) j) (ix1 j) (by
    rw [Shape.rowMajor_val_one, Shape.rowMajor_val_two]
    show j.val = 0 * 128 + j.val
    omega)

/-- A row gather viewed as heads is the node table picked per edge and read as heads. -/
theorem gathered_heads (T : FVec Ideal S50000x128 .f32) (ni : IVec S800000x1 32) :
    (fun i => shapeCast S800000x8x16 (Host.gather gather_S50000x128_S800000x1_S800000x128_1_0_n_n_0_1_1128 T ni) shapeCasts_S800000x128_S800000x8x16 i) = pick T ni := by
  funext i
  obtain ⟨e, hh, d, rfl⟩ : ∃ (e : Fin 800000) (hh : Fin 8) (d : Fin 16), i = ix3 e hh d := ⟨i 0, i 1, i 2, eq_ix3 i⟩
  show shapeCast S800000x8x16 (Host.gather gather_S50000x128_S800000x1_S800000x128_1_0_n_n_0_1_1128 T ni) shapeCasts_S800000x128_S800000x8x16 (ix3 e hh d) = _
  rw [reshape_heads, gather_row]
  rfl

/-- An edge table viewed as heads. -/
theorem table_heads (T : FVec Ideal S800000x128 .f32) :
    (fun i => shapeCast S800000x8x16 T shapeCasts_S800000x128_S800000x8x16 i) = heads T := by
  funext i
  obtain ⟨e, hh, d, rfl⟩ : ∃ (e : Fin 800000) (hh : Fin 8) (d : Fin 16), i = ix3 e hh d := ⟨i 0, i 1, i 2, eq_ix3 i⟩
  show shapeCast S800000x8x16 T shapeCasts_S800000x128_S800000x8x16 (ix3 e hh d) = _
  rw [reshape_heads]
  rfl

section Fold

variable (m : (ℓ : Loc nD τ sig) → Buf (Elt Ideal) ℓ) (ρ : Dev nD → PrngReg)

/-- A dense layer of equal tables, weights and biases. -/
theorem dense_congr {R : ℕ} {x x' : (⟨2, ![R, 128]⟩ : Shape).Idx → EReal} {W W' : Weights.Idx → EReal} {b b' : Fin 128 → EReal}
    (hx : x = x') (hW : W = W') (hb : b = b') : dense x W b = dense x' W' b' := by
  subst hx hW hb; rfl

/-! ## The first region's entry: the node features and the three weight matrices as launched, the bias rows -/

theorem entry0_h (c : Dev nD) : V1 m ρ c main_arg0 = m ((c : Thread nD τ).loc main_arg0) := by
  show StableHlo.after hostOps0 (W0 m ρ c) (Proc.devRef .tc main_arg0) = _
  after_results
theorem entry0_wq (c : Dev nD) : V1 m ρ c main_arg4 = m ((c : Thread nD τ).loc main_arg4) := by
  show StableHlo.after hostOps0 (W0 m ρ c) (Proc.devRef .tc main_arg4) = _
  after_results
theorem entry0_wk (c : Dev nD) : V1 m ρ c main_arg6 = m ((c : Thread nD τ).loc main_arg6) := by
  show StableHlo.after hostOps0 (W0 m ρ c) (Proc.devRef .tc main_arg6) = _
  after_results
theorem entry0_wv (c : Dev nD) : V1 m ρ c main_arg8 = m ((c : Thread nD τ).loc main_arg8) := by
  show StableHlo.after hostOps0 (W0 m ρ c) (Proc.devRef .tc main_arg8) = _
  after_results

theorem entry0_bq (c : Dev nD) :
    (fun j : Fin 128 => V1 m ρ c main_v0 (ix2 (0 : Fin 1) j)) = fun j => m ((c : Thread nD τ).loc main_arg5) (ix1 j) := by
  have e : V1 m ρ c main_v0 = fun i => shapeCast S1x128 (m ((c : Thread nD τ).loc main_arg5)) shapeCasts_S128_S1x128 i := by
    show StableHlo.after hostOps0 (W0 m ρ c) (Proc.devRef .tc main_v0) = _
    after_results
    rfl
  funext j
  rw [e]
  exact reshape_row _ j
theorem entry0_bk (c : Dev nD) :
    (fun j : Fin 128 => V1 m ρ c main_v1 (ix2 (0 : Fin 1) j)) = fun j => m ((c : Thread nD τ).loc main_arg7) (ix1 j) := by
  have e : V1 m ρ c main_v1 = fun i => shapeCast S1x128 (m ((c : Thread nD τ).loc main_arg7)) shapeCasts_S128_S1x128 i := by
    show StableHlo.after hostOps0 (W0 m ρ c) (Proc.devRef .tc main_v1) = _
    after_results
    rfl
  funext j
  rw [e]
  exact reshape_row _ j
theorem entry0_bv (c : Dev nD) :
    (fun j : Fin 128 => V1 m ρ c main_v2 (ix2 (0 : Fin 1) j)) = fun j => m ((c : Thread nD τ).loc main_arg9) (ix1 j) := by
  have e : V1 m ρ c main_v2 = fun i => shapeCast S1x128 (m ((c : Thread nD τ).loc main_arg9)) shapeCasts_S128_S1x128 i := by
    show StableHlo.after hostOps0 (W0 m ρ c) (Proc.devRef .tc main_v2) = _
    after_results
    rfl
  funext j
  rw [e]
  exact reshape_row _ j

/-! ## A buffer no region owns and no host operation writes, after the first region -/

theorem after0_keep (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

/-! ## The second region's entry -/

theorem entry1_e (c : Dev nD) : V3 m ρ c main_arg1 = m ((c : Thread nD τ).loc main_arg1) := by
  show StableHlo.after hostOps1 (W2 m ρ c) (Proc.devRef .tc main_arg1) = _
  after_results
  exact after0_keep m ρ c main_arg1 (by decide) (by after_results)
theorem entry1_we (c : Dev nD) : V3 m ρ c main_arg10 = m ((c : Thread nD τ).loc main_arg10) := by
  show StableHlo.after hostOps1 (W2 m ρ c) (Proc.devRef .tc main_arg10) = _
  after_results
  exact after0_keep m ρ c main_arg10 (by decide) (by after_results)
theorem entry1_be (c : Dev nD) :
    (fun j : Fin 128 => V3 m ρ c main_v4 (ix2 (0 : Fin 1) j)) = fun j => m ((c : Thread nD τ).loc main_arg11) (ix1 j) := by
  have e : V3 m ρ c main_v4 = fun i => shapeCast S1x128 (m ((c : Thread nD τ).loc main_arg11)) shapeCasts_S128_S1x128 i := by
    show StableHlo.after hostOps1 (W2 m ρ c) (Proc.devRef .tc main_v4) = _
    after_results
    rw [after0_keep m ρ c main_arg11 (by decide) (by after_results)]
    rfl
  funext j
  rw [e]
  exact reshape_row _ j

/-! ## The index vectors after the second region -/

theorem after1_src (c : Dev nD) : W4 m ρ c (Proc.devRef .tc main_arg2) = m ((c : Thread nD τ).loc main_arg2) := by
  refine (W4_of_ne m ρ c main_arg2 (by decide)).trans ?_
  have h : StableHlo.after hostOps1 (W2 m ρ c) (Proc.devRef .tc main_arg2) = W2 m ρ c (Proc.devRef .tc main_arg2) := by after_results
  exact h.trans (after0_keep m ρ c main_arg2 (by decide) (by after_results))
theorem after1_dst (c : Dev nD) : W4 m ρ c (Proc.devRef .tc main_arg3) = m ((c : Thread nD τ).loc main_arg3) := by
  refine (W4_of_ne m ρ c main_arg3 (by decide)).trans ?_
  have h : StableHlo.after hostOps1 (W2 m ρ c) (Proc.devRef .tc main_arg3) = W2 m ρ c (Proc.devRef .tc main_arg3) := by after_results
  exact h.trans (after0_keep m ρ c main_arg3 (by decide) (by after_results))
theorem after2_dst (c : Dev nD) : W6 m ρ c (Proc.devRef .tc main_arg3) = m ((c : Thread nD τ).loc main_arg3) := by
  refine (W6_of_ne m ρ c main_arg3 (by decide)).trans ?_
  have h : StableHlo.after hostOps2 (W4 m ρ c) (Proc.devRef .tc main_arg3) = W4 m ρ c (Proc.devRef .tc main_arg3) := by after_results
  exact h.trans (after1_dst m ρ c)

/-- The first region's outputs are untouched until the third region's entry stretch reads them. -/
theorem after1_q (c : Dev nD) : W4 m ρ c (Proc.devRef .tc main_v3_0) = W2 m ρ c (Proc.devRef .tc main_v3_0) :=
  (W4_of_ne m ρ c main_v3_0 (by decide)).trans
    (by show StableHlo.after hostOps1 (W2 m ρ c) (Proc.devRef .tc main_v3_0) = W2 m ρ c (Proc.devRef .tc main_v3_0); after_results)
theorem after1_k (c : Dev nD) : W4 m ρ c (Proc.devRef .tc main_v3_1) = W2 m ρ c (Proc.devRef .tc main_v3_1) :=
  (W4_of_ne m ρ c main_v3_1 (by decide)).trans
    (by show StableHlo.after hostOps1 (W2 m ρ c) (Proc.devRef .tc main_v3_1) = W2 m ρ c (Proc.devRef .tc main_v3_1); after_results)
theorem after1_v (c : Dev nD) : W4 m ρ c (Proc.devRef .tc main_v3_2) = W2 m ρ c (Proc.devRef .tc main_v3_2) :=
  (W4_of_ne m ρ c main_v3_2 (by decide)).trans
    (by show StableHlo.after hostOps1 (W2 m ρ c) (Proc.devRef .tc main_v3_2) = W2 m ρ c (Proc.devRef .tc main_v3_2); after_results)

/-! ## The third region's entry: the gathered tables as heads -/

theorem entry2_ks (c : Dev nD) :
    V5 m ρ c main_v13 = pick (W2 m ρ c (Proc.devRef .tc main_v3_1)) (wrapIdx (m ((c : Thread nD τ).loc main_arg2))) := by
  have e : V5 m ρ c main_v13 = fun i => shapeCast S800000x8x16
      (Host.gather gather_S50000x128_S800000x1_S800000x128_1_0_n_n_0_1_1128 (W4 m ρ c (Proc.devRef .tc main_v3_1)) (wrapIdx (W4 m ρ c (Proc.devRef .tc main_arg2))))
      shapeCasts_S800000x128_S800000x8x16 i := by
    show StableHlo.after hostOps2 (W4 m ρ c) (Proc.devRef .tc main_v13) = _
    after_results
    rfl
  rw [e, after1_k, after1_src]
  exact gathered_heads _ _
theorem entry2_qd (c : Dev nD) :
    V5 m ρ c main_v21 = pick (W2 m ρ c (Proc.devRef .tc main_v3_0)) (wrapIdx (m ((c : Thread nD τ).loc main_arg3))) := by
  have e : V5 m ρ c main_v21 = fun i => shapeCast S800000x8x16
      (Host.gather gather_S50000x128_S800000x1_S800000x128_1_0_n_n_0_1_1128 (W4 m ρ c (Proc.devRef .tc main_v3_0)) (wrapIdx (W4 m ρ c (Proc.devRef .tc main_arg3))))
      shapeCasts_S800000x128_S800000x8x16 i := by
    show StableHlo.after hostOps2 (W4 m ρ c) (Proc.devRef .tc main_v21) = _
    after_results
    rfl
  rw [e, after1_q, after1_dst]
  exact gathered_heads _ _
theorem entry2_vs (c : Dev nD) :
    V5 m ρ c main_v29 = pick (W2 m ρ c (Proc.devRef .tc main_v3_2)) (wrapIdx (m ((c : Thread nD τ).loc main_arg2))) := by
  have e : V5 m ρ c main_v29 = fun i => shapeCast S800000x8x16
      (Host.gather gather_S50000x128_S800000x1_S800000x128_1_0_n_n_0_1_1128 (W4 m ρ c (Proc.devRef .tc main_v3_2)) (wrapIdx (W4 m ρ c (Proc.devRef .tc main_arg2))))
      shapeCasts_S800000x128_S800000x8x16 i := by
    show StableHlo.after hostOps2 (W4 m ρ c) (Proc.devRef .tc main_v29) = _
    after_results
    rfl
  rw [e, after1_v, after1_src]
  exact gathered_heads _ _
theorem entry2_ep (c : Dev nD) :
    V5 m ρ c main_v30 = heads (W4 m ρ c (Proc.devRef .tc main_v5)) := by
  have e : V5 m ρ c main_v30 = fun i => shapeCast S800000x8x16 (W4 m ρ c (Proc.devRef .tc main_v5)) shapeCasts_S800000x128_S800000x8x16 i := by
    show StableHlo.after hostOps2 (W4 m ρ c) (Proc.devRef .tc main_v30) = _
    after_results
    rfl
  rw [e]
  exact table_heads _

/-! ## The last stretch -/

theorem last_edge (c : Dev nD) : W7 m ρ c (Proc.devRef .tc main_v31_0) = W6 m ρ c (Proc.devRef .tc main_v31_0) := by
  show StableHlo.after hostOps3 (W6 m ρ c) (Proc.devRef .tc main_v31_0) = _
  after_results

theorem last_node (c : Dev nD) :
    W7 m ρ c (Proc.devRef .tc main_v41)
      = tail (m ((c : Thread nD τ).loc main_arg3)) (W6 m ρ c (Proc.devRef .tc main_v31_1)) (W6 m ρ c (Proc.devRef .tc main_v31_2)) := by
  have e : W7 m ρ c (Proc.devRef .tc main_v41)
      = tail (W6 m ρ c (Proc.devRef .tc main_arg3)) (W6 m ρ c (Proc.devRef .tc main_v31_1)) (W6 m ρ c (Proc.devRef .tc main_v31_2)) := by
    show StableHlo.after hostOps3 (W6 m ρ c) (Proc.devRef .tc main_v41) = _
    after_results
    rfl
  rw [e, after2_dst]

end Fold

end Cert.KernelIdeal.HostReads

end
-- ==== Proof.Region0.lean ====
/-
  THE NODE PROJECTIONS, FROM TILES TO WHOLE TABLES. The first region computes the three node tables Q, K and V of the
  attention layer, each the dense layer (h W + b) of the same table h of 50000 rows of 128 features, in 10 tiles of
  5000 rows: point t reads rows 5000 t ... 5000 t + 4999 of h, the whole weight matrix and the whole bias row of each
  projection, and writes back the same rows of each output table.

  Here each output table after the region is stated as ONE function of the arrays the region finds at entry, whatever
  those are: the dense layer of the whole table (Cert.Attn.dense), index by index on extended reals.

  * tile_at: what a point stores, at row p and column q of its tile, is the dense layer of row p of its tile of h;
  * block_indices: where each operand's tile sits at point t (decided over the 10 points);
  * rows_block, weights_tile, bias_tile: each input tile read where the output tile's rows say;
  * tile_dense: so the tile stored at point t is rows 5000 t ... of the whole table's dense layer;
  * written, mem_rows, covered: what point t writes back, which indices its block holds, and that the blocks cover the
    table (row r is written by point r / 5000);
  * arr_q, arr_k, arr_v: the three tables after the region.
  No arithmetic law is used: a tile's sum over the 128 inner features is the table's sum, term by term.
-/
import proofs.«103258_j12987981103701_2_alg».proof.Proof.Gen.KernelIdeal.Frame
import proofs.«103258_j12987981103701_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The zero offsets, as the function they are. -/
theorem zero_offsets : (![0, 0] : Fin 2 → Nat) = fun _ => 0 := funext fun a => by fin_cases a <;> rfl

/-! ## The contraction's operand indices: row i of the left operand against column j of the right, over one inner axis -/

theorem contract_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem contract_lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem contract_rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem contract_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## One tile -/

/-- What a point stores, read at row p, column q of its tile: the dense layer of row p of the tile of activations under
    the weights and the bias row it was given. -/
theorem tile_at (x0 : Vec Ideal S5000x128 .f32) (W : Vec Ideal S128x128 .f32) (b : Vec Ideal S1x128 .f32) (p : Fin 5000) (q : Fin 128) :
    k0_pay2 x0 W b (ix2 p q) = Cert.Dense.affine W (fun j => b (ix2 (0 : Fin 1) j)) (fun k => x0 (ix2 p k)) q := by
  unfold k0_pay2 k0_pay1
  exact Cert.Dense.tile_affine dot_S5000x128_S128x128_S5000x128_1_0_0_1_n_n rfl rfl contract_lhs_row contract_lhs_inner
    contract_rhs_inner contract_rhs_col x0 W b _ _ _ p q

/-! ## Where each operand's tile sits -/

/-- At point t the activations' tile and every output's tile are row block t (the one column block), and the weights' and
    the bias rows' tiles are their whole arrays. -/
theorem block_indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row p of the activations' tile at point t is row 5000 t + p of the table. -/
theorem rows_block (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨⟨e0, e1⟩, -⟩ := block_indices t
  show V c main_arg0 (((cfg0.win 0).blk t).view.emb (ix2 p k)) = V c main_arg0 (ix2 r k)
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weights' tile of window 1 is its whole array, at every point. -/
theorem weights_tile1 (c : Dev nD) (t : Fin cfg0.N) (y : S128x128.Idx) :
    (iblk0 V c 1 t : Vec Ideal S128x128 .f32) y = (V c main_arg4 : S128x128.Idx → EReal) y := by
  obtain ⟨-, ⟨e0, e1⟩, -⟩ := block_indices t
  show V c main_arg4 (((cfg0.win 1).blk t).view.emb y) = V c main_arg4 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's tile of window 2 is its whole array, at every point. -/
theorem bias_tile2 (c : Dev nD) (t : Fin cfg0.N) (y : S1x128.Idx) :
    (iblk0 V c 2 t : Vec Ideal S1x128 .f32) y = (V c main_v0 : S1x128.Idx → EReal) y := by
  obtain ⟨-, -, ⟨e0, e1⟩, -⟩ := block_indices t
  show V c main_v0 (((cfg0.win 2).blk t).view.emb y) = V c main_v0 y
  congr 1
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The weights' tile of window 3 is its whole array, at every point. -/
theorem weights_tile3 (c : Dev nD) (t : Fin cfg0.N) (y : S128x128.Idx) :
    (iblk0 V c 3 t : Vec Ideal S128x128 .f32) y = (V c main_arg6 : S128x128.Idx → EReal) y := by
  obtain ⟨-, -, -, ⟨e0, e1⟩, -⟩ := block_indices t
  show V c main_arg6 (((cfg0.win 3).blk t).view.emb y) = V c main_arg6 y
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's tile of window 4 is its whole array, at every point. -/
theorem bias_tile4 (c : Dev nD) (t : Fin cfg0.N) (y : S1x128.Idx) :
    (iblk0 V c 4 t : Vec Ideal S1x128 .f32) y = (V c main_v1 : S1x128.Idx → EReal) y := by
  obtain ⟨-, -, -, -, ⟨e0, e1⟩, -⟩ := block_indices t
  show V c main_v1 (((cfg0.win 4).blk t).view.emb y) = V c main_v1 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The weights' tile of window 5 is its whole array, at every point. -/
theorem weights_tile5 (c : Dev nD) (t : Fin cfg0.N) (y : S128x128.Idx) :
    (iblk0 V c 5 t : Vec Ideal S128x128 .f32) y = (V c main_arg8 : S128x128.Idx → EReal) y := by
  obtain ⟨-, -, -, -, -, ⟨e0, e1⟩, -⟩ := block_indices t
  show V c main_arg8 (((cfg0.win 5).blk t).view.emb y) = V c main_arg8 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The bias row's tile of window 6 is its whole array, at every point. -/
theorem bias_tile6 (c : Dev nD) (t : Fin cfg0.N) (y : S1x128.Idx) :
    (iblk0 V c 6 t : Vec Ideal S1x128 .f32) y = (V c main_v2 : S1x128.Idx → EReal) y := by
  obtain ⟨-, -, -, -, -, -, ⟨e0, e1⟩, -⟩ := block_indices t
  show V c main_v2 (((cfg0.win 6).blk t).view.emb y) = V c main_v2 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The tiles the second and third projections store are the first's, under their own weights and bias rows: the three
    stored values are one and the same function of (activations, weights, bias row). -/
theorem tile_k_eq : @k0_pay3 Ideal _ = k0_pay2 := rfl
theorem tile_v_eq : @k0_pay4 Ideal _ = k0_pay2 := rfl

/-! ## One tile is a block of rows of the whole table's dense layer -/

/-- A tile's dense layer at row p, column q is the whole table's dense layer at row r, column q, when row p of the tile
    of activations is row r of the table and the tile's weights and bias row are the whole arrays W and B. -/
theorem tile_dense (x0 : S5000x128.Idx → EReal) (W0 : S128x128.Idx → EReal) (b0 : S1x128.Idx → EReal)
    (X : S50000x128.Idx → EReal) (W : S128x128.Idx → EReal) (B : S1x128.Idx → EReal)
    (p : Fin 5000) (q : Fin 128) (r : Fin 50000)
    (hx : ∀ k : Fin 128, x0 (ix2 p k) = X (ix2 r k)) (hW : ∀ y, W0 y = W y) (hb : ∀ y, b0 y = B y) :
    k0_pay2 (F := Ideal) x0 W0 b0 (ix2 p q) = Cert.Attn.dense (R := 50000) X W (fun j => B (ix2 (0 : Fin 1) j)) (ix2 r q) := by
  refine (tile_at _ _ _ p q).trans ?_
  show (∑ k : Fin 128, x0 (ix2 p k) * W0 (ix2 k q)) + b0 (ix2 (0 : Fin 1) q)
    = (∑ k : Fin 128, X (ix2 r k) * W (ix2 k q)) + B (ix2 (0 : Fin 1) q)
  rw [hb]
  refine congrArg (· + B (ix2 (0 : Fin 1) q)) (Finset.sum_congr rfl fun k _ => ?_)
  rw [hW, hx]

/-! ## The table Q -/

/-- What point t writes back is its block of rows of the whole table's dense layer. -/
theorem written_q (c : Dev nD) (t : Fin cfg0.N) :
    (dat0 V c).flushed 7 t = ((cfg0.win 7).blk t).view.read (Elt Ideal)
      (Cert.Attn.dense (R := 50000) (V c main_arg0) (V c main_arg4) (fun j => V c main_v0 (ix2 (0 : Fin 1) j))) := by
  show (cfg0.win 7).cut (grid0.coords t) ((dat0 V c).after 7 t) = _
  rw [after0_7]
  unfold out0_7
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, ⟨e0, e1⟩, -⟩ := block_indices t
  have ht : t.val < 10 := by have h : t.val < grid0.N := t.isLt; have hN : grid0.N = 10 := N_0; omega
  have hemb : ((cfg0.win 7).blk t).view.emb (ix2 p q) = ix2 (⟨t.val * 5000 + p.val, by omega⟩ : Fin 50000) q :=
    Cert.Dense.ix2_of_val (n0 := 50000) (n1 := 128) _ _ _
      (by show win0_7.index t (0 : Fin 2) * 5000 + 1 * p.val = t.val * 5000 + p.val; omega)
      (by show win0_7.index t (1 : Fin 2) * 128 + 1 * q.val = q.val; omega)
  show k0_pay2 (iblk0 V c 0 t) (iblk0 V c 1 t) (iblk0 V c 2 t) (ix2 p q)
    = Cert.Attn.dense (R := 50000) (V c main_arg0) (V c main_arg4) (fun j => V c main_v0 (ix2 (0 : Fin 1) j))
        (((cfg0.win 7).blk t).view.emb (ix2 p q))
  rw [hemb]
  exact tile_dense (iblk0 V c 0 t) (iblk0 V c 1 t) (iblk0 V c 2 t) (V c main_arg0) (V c main_arg4) (V c main_v0) p q _
    (fun k => rows_block V c t p k _ rfl) (weights_tile1 V c t) (bias_tile2 V c t)

/-- An index of the table is in point t's block iff each coordinate is in the block's range on its axis. -/
theorem mem_rows_q (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v3_0).slice (win0_7.rect t)).set ↔ _
  rw [View.set_slice_whole, Rect.mem_set_unit]
  exact Iff.rfl

/-- Every index of the table is written back by some point: row r by point r / 5000, whatever the column. -/
theorem covered_q (i : S50000x128.Idx) :
    ∃ t : Fin cfg0.N, (cfg0.win 7).flush t = true ∧ i ∈ ((cfg0.win 7).blk t).view.set := by
  have h0 : (i 0).val < 50000 := (i 0).isLt
  have h1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, ⟨e0, e1⟩, -⟩ := block_indices t
  refine ⟨t, flush0_7 t, ?_⟩
  rw [mem_rows_q]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

/-- THE ARRAY after the region: the dense layer of the whole table, as one function of the arrays the region found. -/
theorem arr_q (c : Dev nD) : (dat0 V c).arrAt 7 cfg0.N
    = Cert.Attn.dense (R := 50000) (V c main_arg0) (V c main_arg4) (fun j => V c main_v0 (ix2 (0 : Fin 1) j)) :=
  (dat0 V c).arrAt_eq_of_cover 7 _ (fun t _ => written_q V c t) covered_q

/-! ## The table K (the same tile under the second projection's weights and bias row) -/

/-- What point t writes back is its block of rows of the whole table's dense layer. -/
theorem written_k (c : Dev nD) (t : Fin cfg0.N) :
    (dat0 V c).flushed 8 t = ((cfg0.win 8).blk t).view.read (Elt Ideal)
      (Cert.Attn.dense (R := 50000) (V c main_arg0) (V c main_arg6) (fun j => V c main_v1 (ix2 (0 : Fin 1) j))) := by
  show (cfg0.win 8).cut (grid0.coords t) ((dat0 V c).after 8 t) = _
  rw [after0_8]
  unfold out0_8
  rw [tile_k_eq]
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, -, ⟨e0, e1⟩, -⟩ := block_indices t
  have ht : t.val < 10 := by have h : t.val < grid0.N := t.isLt; have hN : grid0.N = 10 := N_0; omega
  have hemb : ((cfg0.win 8).blk t).view.emb (ix2 p q) = ix2 (⟨t.val * 5000 + p.val, by omega⟩ : Fin 50000) q :=
    Cert.Dense.ix2_of_val (n0 := 50000) (n1 := 128) _ _ _
      (by show win0_8.index t (0 : Fin 2) * 5000 + 1 * p.val = t.val * 5000 + p.val; omega)
      (by show win0_8.index t (1 : Fin 2) * 128 + 1 * q.val = q.val; omega)
  show k0_pay2 (iblk0 V c 0 t) (iblk0 V c 3 t) (iblk0 V c 4 t) (ix2 p q)
    = Cert.Attn.dense (R := 50000) (V c main_arg0) (V c main_arg6) (fun j => V c main_v1 (ix2 (0 : Fin 1) j))
        (((cfg0.win 8).blk t).view.emb (ix2 p q))
  rw [hemb]
  exact tile_dense (iblk0 V c 0 t) (iblk0 V c 3 t) (iblk0 V c 4 t) (V c main_arg0) (V c main_arg6) (V c main_v1) p q _
    (fun k => rows_block V c t p k _ rfl) (weights_tile3 V c t) (bias_tile4 V c t)

/-- An index of the table is in point t's block iff each coordinate is in the block's range on its axis. -/
theorem mem_rows_k (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v3_1).slice (win0_8.rect t)).set ↔ _
  rw [View.set_slice_whole, Rect.mem_set_unit]
  exact Iff.rfl

/-- Every index of the table is written back by some point: row r by point r / 5000, whatever the column. -/
theorem covered_k (i : S50000x128.Idx) :
    ∃ t : Fin cfg0.N, (cfg0.win 8).flush t = true ∧ i ∈ ((cfg0.win 8).blk t).view.set := by
  have h0 : (i 0).val < 50000 := (i 0).isLt
  have h1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, ⟨e0, e1⟩, -⟩ := block_indices t
  refine ⟨t, flush0_8 t, ?_⟩
  rw [mem_rows_k]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- THE ARRAY after the region: the dense layer of the whole table, as one function of the arrays the region found. -/
theorem arr_k (c : Dev nD) : (dat0 V c).arrAt 8 cfg0.N
    = Cert.Attn.dense (R := 50000) (V c main_arg0) (V c main_arg6) (fun j => V c main_v1 (ix2 (0 : Fin 1) j)) :=
  (dat0 V c).arrAt_eq_of_cover 8 _ (fun t _ => written_k V c t) covered_k

/-! ## The table V (the same tile under the third projection's weights and bias row) -/

/-- What point t writes back is its block of rows of the whole table's dense layer. -/
theorem written_v (c : Dev nD) (t : Fin cfg0.N) :
    (dat0 V c).flushed 9 t = ((cfg0.win 9).blk t).view.read (Elt Ideal)
      (Cert.Attn.dense (R := 50000) (V c main_arg0) (V c main_arg8) (fun j => V c main_v2 (ix2 (0 : Fin 1) j))) := by
  show (cfg0.win 9).cut (grid0.coords t) ((dat0 V c).after 9 t) = _
  rw [after0_9]
  unfold out0_9
  rw [tile_v_eq]
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, -, -, ⟨e0, e1⟩⟩ := block_indices t
  have ht : t.val < 10 := by have h : t.val < grid0.N := t.isLt; have hN : grid0.N = 10 := N_0; omega
  have hemb : ((cfg0.win 9).blk t).view.emb (ix2 p q) = ix2 (⟨t.val * 5000 + p.val, by omega⟩ : Fin 50000) q :=
    Cert.Dense.ix2_of_val (n0 := 50000) (n1 := 128) _ _ _
      (by show win0_9.index t (0 : Fin 2) * 5000 + 1 * p.val = t.val * 5000 + p.val; omega)
      (by show win0_9.index t (1 : Fin 2) * 128 + 1 * q.val = q.val; omega)
  show k0_pay2 (iblk0 V c 0 t) (iblk0 V c 5 t) (iblk0 V c 6 t) (ix2 p q)
    = Cert.Attn.dense (R := 50000) (V c main_arg0) (V c main_arg8) (fun j => V c main_v2 (ix2 (0 : Fin 1) j))
        (((cfg0.win 9).blk t).view.emb (ix2 p q))
  rw [hemb]
  exact tile_dense (iblk0 V c 0 t) (iblk0 V c 5 t) (iblk0 V c 6 t) (V c main_arg0) (V c main_arg8) (V c main_v2) p q _
    (fun k => rows_block V c t p k _ rfl) (weights_tile5 V c t) (bias_tile6 V c t)

/-- An index of the table is in point t's block iff each coordinate is in the block's range on its axis. -/
theorem mem_rows_v (t : Fin cfg0.N) (i : S50000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v3_2).slice (win0_9.rect t)).set ↔ _
  rw [View.set_slice_whole, Rect.mem_set_unit]
  exact Iff.rfl

/-- Every index of the table is written back by some point: row r by point r / 5000, whatever the column. -/
theorem covered_v (i : S50000x128.Idx) :
    ∃ t : Fin cfg0.N, (cfg0.win 9).flush t = true ∧ i ∈ ((cfg0.win 9).blk t).view.set := by
  have h0 : (i 0).val < 50000 := (i 0).isLt
  have h1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, ⟨e0, e1⟩⟩ := block_indices t
  refine ⟨t, flush0_9 t, ?_⟩
  rw [mem_rows_v]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 128 ≤ (i 1).val ∧ (i 1).val < win0_9.index t (1 : Fin 2) * 128 + 128
    omega

/-- THE ARRAY after the region: the dense layer of the whole table, as one function of the arrays the region found. -/
theorem arr_v (c : Dev nD) : (dat0 V c).arrAt 9 cfg0.N
    = Cert.Attn.dense (R := 50000) (V c main_arg0) (V c main_arg8) (fun j => V c main_v2 (ix2 (0 : Fin 1) j)) :=
  (dat0 V c).arrAt_eq_of_cover 9 _ (fun t _ => written_v V c t) covered_v

end Cert.KernelIdeal.Region0

end
-- ==== Proof.Region1.lean ====
/-
  THE EDGE PROJECTION, FROM TILES TO THE WHOLE TABLE. The second region computes the edge table Ep of the attention
  layer, the dense layer (e We + be) of the table e of 800000 rows of 128 features, in 100 tiles of 8000 rows: point t
  reads rows 8000 t ... 8000 t + 7999 of e, the whole weight matrix and the whole bias row, and writes back the same
  rows of the output table.

  Here the output table after the region is stated as ONE function of the arrays the region finds at entry, whatever
  those are: the dense layer of the whole table (Cert.Attn.dense), index by index on extended reals.

  * tile_at: what a point stores, at row p and column q of its tile, is the dense layer of row p of its tile of e;
  * block_indices: where each operand's tile sits at point t (decided over the 100 points);
  * rows_block, weights_tile, bias_tile: each input tile read where the output tile's rows say;
  * tile_dense: so the tile stored at point t is rows 8000 t ... of the whole table's dense layer;
  * written, mem_rows, covered: what point t writes back, which indices its block holds, and that the blocks cover the
    table (row r is written by point r / 8000);
  * arr_ep: the table after the region.
  No arithmetic law is used: a tile's sum over the 128 inner features is the table's sum, term by term.
-/
import proofs.«103258_j12987981103701_2_alg».proof.Proof.Gen.KernelIdeal.Frame
import proofs.«103258_j12987981103701_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The zero offsets, as the function they are. -/
theorem zero_offsets : (![0, 0] : Fin 2 → Nat) = fun _ => 0 := funext fun a => by fin_cases a <;> rfl

/-! ## The contraction's operand indices: row i of the left operand against column j of the right, over one inner axis -/

theorem contract_lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl
theorem contract_lhs_inner (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem contract_rhs_inner (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem contract_rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-! ## One tile -/

/-- What a point stores, read at row p, column q of its tile: the dense layer of row p of the tile of activations under
    the weights and the bias row it was given. -/
theorem tile_at (x0 : Vec Ideal S8000x128 .f32) (W : Vec Ideal S128x128 .f32) (b : Vec Ideal S1x128 .f32) (p : Fin 8000) (q : Fin 128) :
    k1_pay1 x0 W b (ix2 p q) = Cert.Dense.affine W (fun j => b (ix2 (0 : Fin 1) j)) (fun k => x0 (ix2 p k)) q := by
  unfold k1_pay1
  exact Cert.Dense.tile_affine dot_S8000x128_S128x128_S8000x128_1_0_0_1_n_n rfl rfl contract_lhs_row contract_lhs_inner
    contract_rhs_inner contract_rhs_col x0 W b _ _ _ p q

/-! ## Where each operand's tile sits -/

/-- At point t the activations' tile and every output's tile are row block t (the one column block), and the weights' and
    the bias rows' tiles are their whole arrays. -/
theorem block_indices : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-- Row p of the activations' tile at point t is row 8000 t + p of the table. -/
theorem rows_block (c : Dev nD) (t : Fin cfg1.N) (p : Fin 8000) (k : Fin 128) (r : Fin 800000) (hr : r.val = t.val * 8000 + p.val) :
    (iblk1 V c 0 t : Vec Ideal S8000x128 .f32) (ix2 p k) = (V c main_arg1 : S800000x128.Idx → EReal) (ix2 r k) := by
  obtain ⟨⟨e0, e1⟩, -⟩ := block_indices t
  show V c main_arg1 (((cfg1.win 0).blk t).view.emb (ix2 p k)) = V c main_arg1 (ix2 r k)
  congr 1
  funext a; apply Fin.ext
  match a with
  | ⟨0, _⟩ => show win1_0.index t (0 : Fin 2) * 8000 + 1 * p.val = r.val; omega
  | ⟨1, _⟩ => show win1_0.index t (1 : Fin 2) * 128 + 1 * k.val = k.val; omega

/-- The weights' tile of window 1 is its whole array, at every point. -/
theorem weights_tile1 (c : Dev nD) (t : Fin cfg1.N) (y : S128x128.Idx) :
    (iblk1 V c 1 t : Vec Ideal S128x128 .f32) y = (V c main_arg10 : S128x128.Idx → EReal) y := by
  obtain ⟨-, ⟨e0, e1⟩, -⟩ := block_indices t
  show V c main_arg10 (((cfg1.win 1).blk t).view.emb y) = V c main_arg10 y
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias row's tile of window 2 is its whole array, at every point. -/
theorem bias_tile2 (c : Dev nD) (t : Fin cfg1.N) (y : S1x128.Idx) :
    (iblk1 V c 2 t : Vec Ideal S1x128 .f32) y = (V c main_v4 : S1x128.Idx → EReal) y := by
  obtain ⟨-, -, ⟨e0, e1⟩, -⟩ := block_indices t
  show V c main_v4 (((cfg1.win 2).blk t).view.emb y) = V c main_v4 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-! ## One tile is a block of rows of the whole table's dense layer -/

/-- A tile's dense layer at row p, column q is the whole table's dense layer at row r, column q, when row p of the tile
    of activations is row r of the table and the tile's weights and bias row are the whole arrays W and B. -/
theorem tile_dense (x0 : S8000x128.Idx → EReal) (W0 : S128x128.Idx → EReal) (b0 : S1x128.Idx → EReal)
    (X : S800000x128.Idx → EReal) (W : S128x128.Idx → EReal) (B : S1x128.Idx → EReal)
    (p : Fin 8000) (q : Fin 128) (r : Fin 800000)
    (hx : ∀ k : Fin 128, x0 (ix2 p k) = X (ix2 r k)) (hW : ∀ y, W0 y = W y) (hb : ∀ y, b0 y = B y) :
    k1_pay1 (F := Ideal) x0 W0 b0 (ix2 p q) = Cert.Attn.dense (R := 800000) X W (fun j => B (ix2 (0 : Fin 1) j)) (ix2 r q) := by
  refine (tile_at _ _ _ p q).trans ?_
  show (∑ k : Fin 128, x0 (ix2 p k) * W0 (ix2 k q)) + b0 (ix2 (0 : Fin 1) q)
    = (∑ k : Fin 128, X (ix2 r k) * W (ix2 k q)) + B (ix2 (0 : Fin 1) q)
  rw [hb]
  refine congrArg (· + B (ix2 (0 : Fin 1) q)) (Finset.sum_congr rfl fun k _ => ?_)
  rw [hW, hx]

/-! ## The table Ep -/

/-- What point t writes back is its block of rows of the whole table's dense layer. -/
theorem written_ep (c : Dev nD) (t : Fin cfg1.N) :
    (dat1 V c).flushed 3 t = ((cfg1.win 3).blk t).view.read (Elt Ideal)
      (Cert.Attn.dense (R := 800000) (V c main_arg1) (V c main_arg10) (fun j => V c main_v4 (ix2 (0 : Fin 1) j))) := by
  show (cfg1.win 3).cut (grid1.coords t) ((dat1 V c).after 3 t) = _
  rw [after1_3]
  unfold out1_3
  rw [View.canon_unit_zero zero_offsets]
  simp only [View.ld_unit_zero (S := S8000x128) zero_offsets, View.ld_unit_zero (S := S128x128) zero_offsets,
    View.ld_unit_zero (S := S1x128) zero_offsets]
  refine funext fun (j : S8000x128.Idx) => ?_
  obtain ⟨p, q, rfl⟩ : ∃ (p : Fin 8000) (q : Fin 128), j = ix2 p q := ⟨j 0, j 1, eq_ix2 j⟩
  obtain ⟨-, -, -, ⟨e0, e1⟩⟩ := block_indices t
  have ht : t.val < 100 := by have h : t.val < grid1.N := t.isLt; have hN : grid1.N = 100 := N_1; omega
  have hemb : ((cfg1.win 3).blk t).view.emb (ix2 p q) = ix2 (⟨t.val * 8000 + p.val, by omega⟩ : Fin 800000) q :=
    Cert.Dense.ix2_of_val (n0 := 800000) (n1 := 128) _ _ _
      (by show win1_3.index t (0 : Fin 2) * 8000 + 1 * p.val = t.val * 8000 + p.val; omega)
      (by show win1_3.index t (1 : Fin 2) * 128 + 1 * q.val = q.val; omega)
  show k1_pay1 (iblk1 V c 0 t) (iblk1 V c 1 t) (iblk1 V c 2 t) (ix2 p q)
    = Cert.Attn.dense (R := 800000) (V c main_arg1) (V c main_arg10) (fun j => V c main_v4 (ix2 (0 : Fin 1) j))
        (((cfg1.win 3).blk t).view.emb (ix2 p q))
  rw [hemb]
  exact tile_dense (iblk1 V c 0 t) (iblk1 V c 1 t) (iblk1 V c 2 t) (V c main_arg1) (V c main_arg10) (V c main_v4) p q _
    (fun k => rows_block V c t p k _ rfl) (weights_tile1 V c t) (bias_tile2 V c t)

/-- An index of the table is in point t's block iff each coordinate is in the block's range on its axis. -/
theorem mem_rows_ep (t : Fin cfg1.N) (i : S800000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v5).slice (win1_3.rect t)).set ↔ _
  rw [View.set_slice_whole, Rect.mem_set_unit]
  exact Iff.rfl

/-- Every index of the table is written back by some point: row r by point r / 8000, whatever the column. -/
theorem covered_ep (i : S800000x128.Idx) :
    ∃ t : Fin cfg1.N, (cfg1.win 3).flush t = true ∧ i ∈ ((cfg1.win 3).blk t).view.set := by
  have h0 : (i 0).val < 800000 := (i 0).isLt
  have h1 : (i 1).val < 128 := (i 1).isLt
  have hN : grid1.N = 100 := N_1
  obtain ⟨t, ht⟩ : ∃ t : Fin cfg1.N, t.val = (i 0).val / 8000 :=
    ⟨⟨(i 0).val / 8000, by show (i 0).val / 8000 < grid1.N; omega⟩, rfl⟩
  obtain ⟨-, -, -, ⟨e0, e1⟩⟩ := block_indices t
  refine ⟨t, flush1_3 t, ?_⟩
  rw [mem_rows_ep]
  intro a
  match a with
  | ⟨0, _⟩ =>
    show win1_3.index t (0 : Fin 2) * 8000 ≤ (i 0).val ∧ (i 0).val < win1_3.index t (0 : Fin 2) * 8000 + 8000
    omega
  | ⟨1, _⟩ =>
    show win1_3.index t (1 : Fin 2) * 128 ≤ (i 1).val ∧ (i 1).val < win1_3.index t (1 : Fin 2) * 128 + 128
    omega

/-- THE ARRAY after the region: the dense layer of the whole table, as one function of the arrays the region found. -/
theorem arr_ep (c : Dev nD) : (dat1 V c).arrAt 3 cfg1.N
    = Cert.Attn.dense (R := 800000) (V c main_arg1) (V c main_arg10) (fun j => V c main_v4 (ix2 (0 : Fin 1) j)) :=
  (dat1 V c).arrAt_eq_of_cover 3 _ (fun t _ => written_ep V c t) covered_ep

end Cert.KernelIdeal.Region1

end
-- ==== Proof.Region2.lean ====
/-
  THE EDGE REGION, from blocks to whole arrays. The third kernel region walks the 800000 edges in 1600 blocks of 500;
  at block t every window holds rows 500 t .. 500 t + 499 of its array, all 8 heads, all 16 coordinates (1 for the
  gate). The body's three stores are, entry by entry,
    the score   a * b * (1/4) * ep,
    the gate    exp (min 5 (max (-5) (sum over the 16 coordinates of the score))), kept as a last axis of extent 1,
    the weighted values   v * gate (the gate spread over the 16 coordinates),
  so each output array ends as that function of the four input arrays as the region finds them: a block is the
  restriction of the whole-array function to its rows, and the blocks tile the array (row r lies in block r / 500).
-/
import proofs.«103258_j12987981103701_2_alg».proof.Proof.Gen.KernelIdeal.Frame
import proofs.«103258_j12987981103701_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Attn
open scoped BigOperators

/-- The score of three per-head edge arrays, entry by entry. -/
def scoreOf (a b ep : EdgeHeads.Idx → EReal) : EdgeHeads.Idx → EReal :=
  fun i => a i * b i * quarterWord * ep i

/-- The weighted values of a per-head edge array and a gate, entry by entry. -/
def weightedOf (v : EdgeHeads.Idx → EReal) (g : EdgeGate.Idx → EReal) : EdgeHeads.Idx → EReal :=
  fun i => v i * g (ix3 (i 0) (i 1) (0 : Fin 1))

/-! ## The body's stores at an entry of a block -/

/-- The first store at an entry: the product of the three loads there and the word for 1/4. -/
theorem store_score (x0 x1 x2 : Vec Ideal S500x8x16 .f32) (j : S500x8x16.Idx) :
    k2_pay1 (F := Ideal) x0 x1 x2 j = x0 j * x1 j * quarterWord * x2 j := by
  unfold k2_pay1
  simp only [shapeCast_self]
  rfl

/-- Head hh of row p with coordinate k put back is (p, hh, k). -/
theorem lift_coord (h : S500x8x16.Reduces [2] S500x8) (p : Fin 500) (hh : Fin 8) (k : Fin (S500x8x16.size 2)) :
    h.lift (ix2 p hh) k = ix3 p hh (⟨k.val, k.isLt⟩ : Fin 16) := by
  funext c; apply Fin.ext
  fin_cases c <;> rfl

/-- The sum over the last axis, read at (p, hh), is the sum of the 16 coordinates of head hh of row p. -/
theorem lane_sum (x : FVec Ideal S500x8x16 .f32) (h : S500x8x16.Reduces [2] S500x8) (hφ : FKind.Formats .f32)
    (hacc : (0x00000000#32 : BitVec 32) = 0x00000000#32) (p : Fin 500) (hh : Fin 8) :
    multiReduction .add [2] S500x8 x 0x00000000#32 h hφ hacc (ix2 p hh) = ∑ d : Fin 16, x (ix3 p hh d) := by
  refine (Ideal.multiReduction_add_single x 0x00000000#32 h hφ hacc (ix2 p hh)).trans ?_
  show ∑ k : Fin 16, x (h.lift (ix2 p hh) k) = _
  exact Finset.sum_congr rfl fun k _ => congrArg x (lift_coord h p hh k)

/-- The gate's store at (p, hh, 0): exp of the head's summed scores clamped into [-5, 5]. -/
theorem store_gate (x0 x1 x2 : Vec Ideal S500x8x16 .f32) (p : Fin 500) (hh : Fin 8) :
    k2_pay2 (F := Ideal) x0 x1 x2 (ix3 p hh (0 : Fin 1))
      = Ideal.exp (min (Ideal.ofBits .f32 0x40A00000#32) (max (Ideal.ofBits .f32 0xC0A00000#32)
          (∑ d : Fin 16, k2_pay1 (F := Ideal) x0 x1 x2 (ix3 p hh d)))) := by
  unfold k2_pay2
  show Ideal.exp (min (Ideal.ofBits .f32 0x40A00000#32) (max (Ideal.ofBits .f32 0xC0A00000#32)
      (shapeCast S500x8x1 (multiReduction .add [2] S500x8 (k2_pay1 (F := Ideal) x0 x1 x2) 0x00000000#32 reduces_S500x8x16_S500x8 (.inl rfl) rfl)
        shapeCasts_S500x8_S500x8x1 (ix3 p hh (0 : Fin 1))))) = _
  rw [shapeCast_apply _ shapeCasts_S500x8_S500x8x1 (ix3 p hh (0 : Fin 1)) (ix2 p hh) (by
    rw [Shape.rowMajor_val_two, Shape.rowMajor_val_three]
    show p.val * 8 + hh.val = (p.val * 8 + hh.val) * 1 + 0
    omega)]
  rw [lane_sum]

/-- The third store at an entry: the fourth load there times the gate of its row and head. -/
theorem store_weighted (x0 x1 x2 x3 : Vec Ideal S500x8x16 .f32) (p : Fin 500) (hh : Fin 8) (d : Fin 16) :
    k2_pay3 (F := Ideal) x0 x1 x2 x3 (ix3 p hh d) = x3 (ix3 p hh d) * k2_pay2 (F := Ideal) x0 x1 x2 (ix3 p hh (0 : Fin 1)) := by
  unfold k2_pay3
  show shapeCast S500x8x16 x3 shapeCasts_S500x8x16_S500x8x16 (ix3 p hh d)
      * broadcastTo S500x8x16 (k2_pay2 (F := Ideal) x0 x1 x2) broadcasts_S500x8x1_S500x8x16 (ix3 p hh d) = _
  rw [shapeCast_self, broadcastTo_apply _ broadcasts_S500x8x1_S500x8x16 (ix3 p hh d) (ix3 p hh (0 : Fin 1)) (fun a => by
    match a with
    | ⟨0, _⟩ => rfl
    | ⟨1, _⟩ => rfl
    | ⟨2, _⟩ => rfl)]

/-! ## Where a block sits in its array -/

theorem hz3 : (![0, 0, 0] : Fin 3 → Nat) = fun _ => 0 := funext fun a => by fin_cases a <;> rfl

theorem index2_0 : ∀ t : Fin cfg2.N, win2_0.index t (0 : Fin 3) = t.val ∧ win2_0.index t (1 : Fin 3) = 0 ∧ win2_0.index t (2 : Fin 3) = 0 :=
  (by decide +kernel : ∀ t : Fin grid2.N, _)

theorem index2_1 : ∀ t : Fin cfg2.N, win2_1.index t (0 : Fin 3) = t.val ∧ win2_1.index t (1 : Fin 3) = 0 ∧ win2_1.index t (2 : Fin 3) = 0 :=
  (by decide +kernel : ∀ t : Fin grid2.N, _)

theorem index2_2 : ∀ t : Fin cfg2.N, win2_2.index t (0 : Fin 3) = t.val ∧ win2_2.index t (1 : Fin 3) = 0 ∧ win2_2.index t (2 : Fin 3) = 0 :=
  (by decide +kernel : ∀ t : Fin grid2.N, _)

theorem index2_3 : ∀ t : Fin cfg2.N, win2_3.index t (0 : Fin 3) = t.val ∧ win2_3.index t (1 : Fin 3) = 0 ∧ win2_3.index t (2 : Fin 3) = 0 :=
  (by decide +kernel : ∀ t : Fin grid2.N, _)

theorem index2_4 : ∀ t : Fin cfg2.N, win2_4.index t (0 : Fin 3) = t.val ∧ win2_4.index t (1 : Fin 3) = 0 ∧ win2_4.index t (2 : Fin 3) = 0 :=
  (by decide +kernel : ∀ t : Fin grid2.N, _)

theorem index2_5 : ∀ t : Fin cfg2.N, win2_5.index t (0 : Fin 3) = t.val ∧ win2_5.index t (1 : Fin 3) = 0 ∧ win2_5.index t (2 : Fin 3) = 0 :=
  (by decide +kernel : ∀ t : Fin grid2.N, _)

theorem index2_6 : ∀ t : Fin cfg2.N, win2_6.index t (0 : Fin 3) = t.val ∧ win2_6.index t (1 : Fin 3) = 0 ∧ win2_6.index t (2 : Fin 3) = 0 :=
  (by decide +kernel : ∀ t : Fin grid2.N, _)

/-- Row p of block t is edge 500 t + p. -/
def edgeOf (t : Fin cfg2.N) (p : Fin 500) : Fin 800000 :=
  ⟨t.val * 500 + p.val, by have hN : grid2.N = 1600 := N_2; have ht : t.val < grid2.N := t.isLt; have := p.isLt; omega⟩

theorem emb2_0 (t : Fin cfg2.N) (p : Fin 500) (hh : Fin 8) (d : Fin 16) :
    ((cfg2.win 0).blk t).view.emb (ix3 p hh d) = ix3 (n0 := 800000) (n1 := 8) (n2 := 16) (edgeOf t p) hh d := by
  obtain ⟨e0, e1, e2⟩ := index2_0 t
  refine ix3_of_val (n0 := 800000) (n1 := 8) (n2 := 16) _ _ _ _ ?_ ?_ ?_
  · show win2_0.index t (0 : Fin 3) * 500 + 1 * p.val = t.val * 500 + p.val; omega
  · show win2_0.index t (1 : Fin 3) * 8 + 1 * hh.val = hh.val; omega
  · show win2_0.index t (2 : Fin 3) * 16 + 1 * d.val = d.val; omega

theorem emb2_1 (t : Fin cfg2.N) (p : Fin 500) (hh : Fin 8) (d : Fin 16) :
    ((cfg2.win 1).blk t).view.emb (ix3 p hh d) = ix3 (n0 := 800000) (n1 := 8) (n2 := 16) (edgeOf t p) hh d := by
  obtain ⟨e0, e1, e2⟩ := index2_1 t
  refine ix3_of_val (n0 := 800000) (n1 := 8) (n2 := 16) _ _ _ _ ?_ ?_ ?_
  · show win2_1.index t (0 : Fin 3) * 500 + 1 * p.val = t.val * 500 + p.val; omega
  · show win2_1.index t (1 : Fin 3) * 8 + 1 * hh.val = hh.val; omega
  · show win2_1.index t (2 : Fin 3) * 16 + 1 * d.val = d.val; omega

theorem emb2_2 (t : Fin cfg2.N) (p : Fin 500) (hh : Fin 8) (d : Fin 16) :
    ((cfg2.win 2).blk t).view.emb (ix3 p hh d) = ix3 (n0 := 800000) (n1 := 8) (n2 := 16) (edgeOf t p) hh d := by
  obtain ⟨e0, e1, e2⟩ := index2_2 t
  refine ix3_of_val (n0 := 800000) (n1 := 8) (n2 := 16) _ _ _ _ ?_ ?_ ?_
  · show win2_2.index t (0 : Fin 3) * 500 + 1 * p.val = t.val * 500 + p.val; omega
  · show win2_2.index t (1 : Fin 3) * 8 + 1 * hh.val = hh.val; omega
  · show win2_2.index t (2 : Fin 3) * 16 + 1 * d.val = d.val; omega

theorem emb2_3 (t : Fin cfg2.N) (p : Fin 500) (hh : Fin 8) (d : Fin 16) :
    ((cfg2.win 3).blk t).view.emb (ix3 p hh d) = ix3 (n0 := 800000) (n1 := 8) (n2 := 16) (edgeOf t p) hh d := by
  obtain ⟨e0, e1, e2⟩ := index2_3 t
  refine ix3_of_val (n0 := 800000) (n1 := 8) (n2 := 16) _ _ _ _ ?_ ?_ ?_
  · show win2_3.index t (0 : Fin 3) * 500 + 1 * p.val = t.val * 500 + p.val; omega
  · show win2_3.index t (1 : Fin 3) * 8 + 1 * hh.val = hh.val; omega
  · show win2_3.index t (2 : Fin 3) * 16 + 1 * d.val = d.val; omega

theorem emb2_4 (t : Fin cfg2.N) (p : Fin 500) (hh : Fin 8) (d : Fin 16) :
    ((cfg2.win 4).blk t).view.emb (ix3 p hh d) = ix3 (n0 := 800000) (n1 := 8) (n2 := 16) (edgeOf t p) hh d := by
  obtain ⟨e0, e1, e2⟩ := index2_4 t
  refine ix3_of_val (n0 := 800000) (n1 := 8) (n2 := 16) _ _ _ _ ?_ ?_ ?_
  · show win2_4.index t (0 : Fin 3) * 500 + 1 * p.val = t.val * 500 + p.val; omega
  · show win2_4.index t (1 : Fin 3) * 8 + 1 * hh.val = hh.val; omega
  · show win2_4.index t (2 : Fin 3) * 16 + 1 * d.val = d.val; omega

theorem emb2_5 (t : Fin cfg2.N) (p : Fin 500) (hh : Fin 8) (d : Fin 16) :
    ((cfg2.win 5).blk t).view.emb (ix3 p hh d) = ix3 (n0 := 800000) (n1 := 8) (n2 := 16) (edgeOf t p) hh d := by
  obtain ⟨e0, e1, e2⟩ := index2_5 t
  refine ix3_of_val (n0 := 800000) (n1 := 8) (n2 := 16) _ _ _ _ ?_ ?_ ?_
  · show win2_5.index t (0 : Fin 3) * 500 + 1 * p.val = t.val * 500 + p.val; omega
  · show win2_5.index t (1 : Fin 3) * 8 + 1 * hh.val = hh.val; omega
  · show win2_5.index t (2 : Fin 3) * 16 + 1 * d.val = d.val; omega

theorem emb2_6 (t : Fin cfg2.N) (p : Fin 500) (hh : Fin 8) (d : Fin 1) :
    ((cfg2.win 6).blk t).view.emb (ix3 p hh d) = ix3 (n0 := 800000) (n1 := 8) (n2 := 1) (edgeOf t p) hh d := by
  obtain ⟨e0, e1, e2⟩ := index2_6 t
  refine ix3_of_val (n0 := 800000) (n1 := 8) (n2 := 1) _ _ _ _ ?_ ?_ ?_
  · show win2_6.index t (0 : Fin 3) * 500 + 1 * p.val = t.val * 500 + p.val; omega
  · show win2_6.index t (1 : Fin 3) * 8 + 1 * hh.val = hh.val; omega
  · show win2_6.index t (2 : Fin 3) * 1 + 1 * d.val = d.val; omega

/-! ## What a point writes back, and the arrays after the region -/

section Arrays

variable (V : (c : Dev nD) → (b : Ref sig .tc) → Buf (Elt Ideal) ((c : Thread nD τ).loc b))

/-- The four input arrays as the region finds them: K[src], Q[dst], Ep and V[src], each [800000, 8, 16]. -/
abbrev inKs (c : Dev nD) : EdgeHeads.Idx → EReal := V c main_v13
abbrev inQd (c : Dev nD) : EdgeHeads.Idx → EReal := V c main_v21
abbrev inEp (c : Dev nD) : EdgeHeads.Idx → EReal := V c main_v30
abbrev inVs (c : Dev nD) : EdgeHeads.Idx → EReal := V c main_v29

/-! An entry of an input window's block at point t is the array's entry at the block's edge. -/

theorem block2_0 (c : Dev nD) (t : Fin cfg2.N) (p : Fin 500) (hh : Fin 8) (d : Fin 16) :
    iblk2 V c 0 t (ix3 p hh d) = inKs V c (ix3 (edgeOf t p) hh d) := by
  show inKs V c (((cfg2.win 0).blk t).view.emb (ix3 p hh d)) = _
  rw [emb2_0]

theorem block2_1 (c : Dev nD) (t : Fin cfg2.N) (p : Fin 500) (hh : Fin 8) (d : Fin 16) :
    iblk2 V c 1 t (ix3 p hh d) = inQd V c (ix3 (edgeOf t p) hh d) := by
  show inQd V c (((cfg2.win 1).blk t).view.emb (ix3 p hh d)) = _
  rw [emb2_1]

theorem block2_2 (c : Dev nD) (t : Fin cfg2.N) (p : Fin 500) (hh : Fin 8) (d : Fin 16) :
    iblk2 V c 2 t (ix3 p hh d) = inEp V c (ix3 (edgeOf t p) hh d) := by
  show inEp V c (((cfg2.win 2).blk t).view.emb (ix3 p hh d)) = _
  rw [emb2_2]

theorem block2_3 (c : Dev nD) (t : Fin cfg2.N) (p : Fin 500) (hh : Fin 8) (d : Fin 16) :
    iblk2 V c 3 t (ix3 p hh d) = inVs V c (ix3 (edgeOf t p) hh d) := by
  show inVs V c (((cfg2.win 3).blk t).view.emb (ix3 p hh d)) = _
  rw [emb2_3]

/-- The score of the three input arrays at an entry of block t, from the blocks' entries. -/
theorem score_at_block (c : Dev nD) (t : Fin cfg2.N) (p : Fin 500) (hh : Fin 8) (d : Fin 16) :
    k2_pay1 (F := Ideal) (iblk2 V c 0 t) (iblk2 V c 1 t) (iblk2 V c 2 t) (ix3 p hh d)
      = scoreOf (inKs V c) (inQd V c) (inEp V c) (ix3 (edgeOf t p) hh d) := by
  refine (store_score _ _ _ _).trans ?_
  rw [block2_0 V c t p hh d, block2_1 V c t p hh d, block2_2 V c t p hh d]
  rfl

/-- Point t writes back block t of the score of the input arrays. -/
theorem flushed_score (c : Dev nD) (t : Fin cfg2.N) :
    (dat2 V c).flushed 4 t = ((cfg2.win 4).blk t).view.read (Elt Ideal) (scoreOf (inKs V c) (inQd V c) (inEp V c)) := by
  show (cfg2.win 4).cut (grid2.coords t) ((dat2 V c).after 4 t) = _
  rw [after2_4]
  unfold out2_4
  rw [View.canon_unit_zero hz3]
  simp only [View.ld_unit_zero (S := S500x8x16) hz3]
  refine funext fun (j : S500x8x16.Idx) => ?_
  obtain ⟨p, hh, d, rfl⟩ : ∃ (p : Fin 500) (hh : Fin 8) (d : Fin 16), j = ix3 p hh d := ⟨j 0, j 1, j 2, eq_ix3 j⟩
  refine (score_at_block V c t p hh d).trans ?_
  show _ = scoreOf (inKs V c) (inQd V c) (inEp V c) (((cfg2.win 4).blk t).view.emb (ix3 p hh d))
  rw [emb2_4]

/-- Point t writes back block t of the gate of the score of the input arrays. -/
theorem flushed_gate (c : Dev nD) (t : Fin cfg2.N) :
    (dat2 V c).flushed 6 t = ((cfg2.win 6).blk t).view.read (Elt Ideal) (gate (scoreOf (inKs V c) (inQd V c) (inEp V c))) := by
  show (cfg2.win 6).cut (grid2.coords t) ((dat2 V c).after 6 t) = _
  rw [after2_6]
  unfold out2_6
  rw [View.canon_unit_zero hz3]
  simp only [View.ld_unit_zero (S := S500x8x16) hz3]
  refine funext fun (j : S500x8x1.Idx) => ?_
  obtain ⟨p, hh, z, rfl⟩ : ∃ (p : Fin 500) (hh : Fin 8) (z : Fin 1), j = ix3 p hh z := ⟨j 0, j 1, j 2, eq_ix3 j⟩
  obtain rfl : z = 0 := Subsingleton.elim _ _
  refine (store_gate _ _ _ p hh).trans ?_
  show _ = gate (scoreOf (inKs V c) (inQd V c) (inEp V c)) (((cfg2.win 6).blk t).view.emb (ix3 p hh (0 : Fin 1)))
  rw [emb2_6]
  show _ = Ideal.exp (min (Ideal.ofBits .f32 0x40A00000#32) (max (Ideal.ofBits .f32 0xC0A00000#32)
      (∑ d : Fin 16, scoreOf (inKs V c) (inQd V c) (inEp V c) (ix3 (edgeOf t p) hh d))))
  exact congrArg (fun s => Ideal.exp (min (Ideal.ofBits .f32 0x40A00000#32) (max (Ideal.ofBits .f32 0xC0A00000#32) s)))
    (Finset.sum_congr rfl fun d _ => score_at_block V c t p hh d)

/-- Point t writes back block t of the weighted values. -/
theorem flushed_weighted (c : Dev nD) (t : Fin cfg2.N) :
    (dat2 V c).flushed 5 t = ((cfg2.win 5).blk t).view.read (Elt Ideal)
      (weightedOf (inVs V c) (gate (scoreOf (inKs V c) (inQd V c) (inEp V c)))) := by
  show (cfg2.win 5).cut (grid2.coords t) ((dat2 V c).after 5 t) = _
  rw [after2_5]
  unfold out2_5
  rw [View.canon_unit_zero hz3]
  simp only [View.ld_unit_zero (S := S500x8x16) hz3]
  refine funext fun (j : S500x8x16.Idx) => ?_
  obtain ⟨p, hh, d, rfl⟩ : ∃ (p : Fin 500) (hh : Fin 8) (d : Fin 16), j = ix3 p hh d := ⟨j 0, j 1, j 2, eq_ix3 j⟩
  refine (store_weighted _ _ _ _ p hh d).trans ?_
  show _ = weightedOf (inVs V c) (gate (scoreOf (inKs V c) (inQd V c) (inEp V c))) (((cfg2.win 5).blk t).view.emb (ix3 p hh d))
  rw [emb2_5]
  have eg : k2_pay2 (F := Ideal) (iblk2 V c 0 t) (iblk2 V c 1 t) (iblk2 V c 2 t) (ix3 p hh (0 : Fin 1))
      = gate (scoreOf (inKs V c) (inQd V c) (inEp V c)) (ix3 (edgeOf t p) hh (0 : Fin 1)) := by
    refine (store_gate _ _ _ p hh).trans ?_
    exact congrArg (fun s => Ideal.exp (min (Ideal.ofBits .f32 0x40A00000#32) (max (Ideal.ofBits .f32 0xC0A00000#32) s)))
      (Finset.sum_congr rfl fun d _ => score_at_block V c t p hh d)
  rw [block2_3 V c t p hh d, eg]
  rfl

/-- An index of the array is in block t iff each coordinate is in the block's range on its axis. -/
theorem mem_block_4 (t : Fin cfg2.N) (i : S800000x8x16.Idx) :
    i ∈ ((cfg2.win 4).blk t).view.set ↔ ∀ a : Fin 3, win2_4.index t a * S500x8x16.size a ≤ (i a).val ∧ (i a).val < win2_4.index t a * S500x8x16.size a + S500x8x16.size a := by
  show i ∈ ((View.whole main_v31_0).slice (win2_4.rect t)).set ↔ _
  rw [View.set_slice_whole, Rect.mem_set_unit]
  exact Iff.rfl

/-- The blocks tile the array: edge r lies in block r / 500. -/
theorem tiled_4 (i : S800000x8x16.Idx) :
    ∃ t : Fin cfg2.N, (cfg2.win 4).flush t = true ∧ i ∈ ((cfg2.win 4).blk t).view.set := by
  have hi0 : (i 0).val < 800000 := (i 0).isLt
  have hi1 : (i 1).val < 8 := (i 1).isLt
  have hi2 : (i 2).val < 16 := (i 2).isLt
  have hN : grid2.N = 1600 := N_2
  let t : Fin cfg2.N := ⟨(i 0).val / 500, by show (i 0).val / 500 < grid2.N; omega⟩
  obtain ⟨e0, e1, e2⟩ := index2_4 t
  have et : t.val = (i 0).val / 500 := rfl
  refine ⟨t, flush2_4 t, ?_⟩
  rw [mem_block_4]
  intro a
  match a with
  | ⟨0, _⟩ => show win2_4.index t (0 : Fin 3) * 500 ≤ (i 0).val ∧ (i 0).val < win2_4.index t (0 : Fin 3) * 500 + 500; omega
  | ⟨1, _⟩ => show win2_4.index t (1 : Fin 3) * 8 ≤ (i 1).val ∧ (i 1).val < win2_4.index t (1 : Fin 3) * 8 + 8; omega
  | ⟨2, _⟩ => show win2_4.index t (2 : Fin 3) * 16 ≤ (i 2).val ∧ (i 2).val < win2_4.index t (2 : Fin 3) * 16 + 16; omega

/-- An index of the array is in block t iff each coordinate is in the block's range on its axis. -/
theorem mem_block_5 (t : Fin cfg2.N) (i : S800000x8x16.Idx) :
    i ∈ ((cfg2.win 5).blk t).view.set ↔ ∀ a : Fin 3, win2_5.index t a * S500x8x16.size a ≤ (i a).val ∧ (i a).val < win2_5.index t a * S500x8x16.size a + S500x8x16.size a := by
  show i ∈ ((View.whole main_v31_1).slice (win2_5.rect t)).set ↔ _
  rw [View.set_slice_whole, Rect.mem_set_unit]
  exact Iff.rfl

/-- The blocks tile the array: edge r lies in block r / 500. -/
theorem tiled_5 (i : S800000x8x16.Idx) :
    ∃ t : Fin cfg2.N, (cfg2.win 5).flush t = true ∧ i ∈ ((cfg2.win 5).blk t).view.set := by
  have hi0 : (i 0).val < 800000 := (i 0).isLt
  have hi1 : (i 1).val < 8 := (i 1).isLt
  have hi2 : (i 2).val < 16 := (i 2).isLt
  have hN : grid2.N = 1600 := N_2
  let t : Fin cfg2.N := ⟨(i 0).val / 500, by show (i 0).val / 500 < grid2.N; omega⟩
  obtain ⟨e0, e1, e2⟩ := index2_5 t
  have et : t.val = (i 0).val / 500 := rfl
  refine ⟨t, flush2_5 t, ?_⟩
  rw [mem_block_5]
  intro a
  match a with
  | ⟨0, _⟩ => show win2_5.index t (0 : Fin 3) * 500 ≤ (i 0).val ∧ (i 0).val < win2_5.index t (0 : Fin 3) * 500 + 500; omega
  | ⟨1, _⟩ => show win2_5.index t (1 : Fin 3) * 8 ≤ (i 1).val ∧ (i 1).val < win2_5.index t (1 : Fin 3) * 8 + 8; omega
  | ⟨2, _⟩ => show win2_5.index t (2 : Fin 3) * 16 ≤ (i 2).val ∧ (i 2).val < win2_5.index t (2 : Fin 3) * 16 + 16; omega

/-- An index of the array is in block t iff each coordinate is in the block's range on its axis. -/
theorem mem_block_6 (t : Fin cfg2.N) (i : S800000x8x1.Idx) :
    i ∈ ((cfg2.win 6).blk t).view.set ↔ ∀ a : Fin 3, win2_6.index t a * S500x8x1.size a ≤ (i a).val ∧ (i a).val < win2_6.index t a * S500x8x1.size a + S500x8x1.size a := by
  show i ∈ ((View.whole main_v31_2).slice (win2_6.rect t)).set ↔ _
  rw [View.set_slice_whole, Rect.mem_set_unit]
  exact Iff.rfl

/-- The blocks tile the array: edge r lies in block r / 500. -/
theorem tiled_6 (i : S800000x8x1.Idx) :
    ∃ t : Fin cfg2.N, (cfg2.win 6).flush t = true ∧ i ∈ ((cfg2.win 6).blk t).view.set := by
  have hi0 : (i 0).val < 800000 := (i 0).isLt
  have hi1 : (i 1).val < 8 := (i 1).isLt
  have hi2 : (i 2).val < 1 := (i 2).isLt
  have hN : grid2.N = 1600 := N_2
  let t : Fin cfg2.N := ⟨(i 0).val / 500, by show (i 0).val / 500 < grid2.N; omega⟩
  obtain ⟨e0, e1, e2⟩ := index2_6 t
  have et : t.val = (i 0).val / 500 := rfl
  refine ⟨t, flush2_6 t, ?_⟩
  rw [mem_block_6]
  intro a
  match a with
  | ⟨0, _⟩ => show win2_6.index t (0 : Fin 3) * 500 ≤ (i 0).val ∧ (i 0).val < win2_6.index t (0 : Fin 3) * 500 + 500; omega
  | ⟨1, _⟩ => show win2_6.index t (1 : Fin 3) * 8 ≤ (i 1).val ∧ (i 1).val < win2_6.index t (1 : Fin 3) * 8 + 8; omega
  | ⟨2, _⟩ => show win2_6.index t (2 : Fin 3) * 1 ≤ (i 2).val ∧ (i 2).val < win2_6.index t (2 : Fin 3) * 1 + 1; omega

/-- THE EDGE OUTPUT after the region: the score of the three gathered arrays. -/
theorem arr_score (c : Dev nD) :
    (dat2 V c).arrAt 4 cfg2.N = scoreOf (inKs V c) (inQd V c) (inEp V c) :=
  (dat2 V c).arrAt_eq_of_cover 4 _ (fun t _ => flushed_score V c t) tiled_4

/-- THE GATE after the region. -/
theorem arr_gate (c : Dev nD) :
    (dat2 V c).arrAt 6 cfg2.N = gate (scoreOf (inKs V c) (inQd V c) (inEp V c)) :=
  (dat2 V c).arrAt_eq_of_cover 6 _ (fun t _ => flushed_gate V c t) tiled_6

/-- THE WEIGHTED VALUES after the region. -/
theorem arr_weighted (c : Dev nD) :
    (dat2 V c).arrAt 5 cfg2.N = weightedOf (inVs V c) (gate (scoreOf (inKs V c) (inQd V c) (inEp V c))) :=
  (dat2 V c).arrAt_eq_of_cover 5 _ (fun t _ => flushed_weighted V c t) tiled_5

end Arrays

end Cert.KernelIdeal.Region2

end
-- ==== Proof.KernelRun.lean ====
/-
  THE KERNEL'S RUN WITH ITS RESULTS NAMED. The program is three kernel regions among four stretches of host
  operations. Its buffer contents at each boundary are a fold from the launch memory: a stretch applies its host
  operations, a region leaves each of its arrays at what its write-backs fold to and every other buffer alone. Every
  weakly fair execution terminates, nothing faulting, with every unscoped buffer at the last boundary's contents; so the
  two result buffers hold that fold's value at them, and the twelve argument buffers what they were launched with.
  What the fold's value at the two results IS, as a function of the arguments, is the business of the next modules.
-/
import proofs.«103258_j12987981103701_2_alg».proof.Proof.Gen.KernelIdeal.Frame

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates, nothing faulting, with the
    node output and the edge output at the last boundary's contents and every argument as launched. -/
theorem run_results : θ_run defs (onTc (τ := τ) (main (F := F))) ⟨m, fun _ => 0, ρ⟩ (fun r => ∀ c : Dev nD,
      r.2.mem ((c.tc : Thread nD τ).loc main_v41) = W7 m ρ c (Proc.devRef .tc main_v41)
      ∧ r.2.mem ((c.tc : Thread nD τ).loc main_v31_0) = W7 m ρ c (Proc.devRef .tc main_v31_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v41 (by decide)),
       h c _ (mem_uc main_v31_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.AttnRun

end
-- ==== Proof.KernelValue.lean ====
/-
  THE KERNEL'S TWO RESULTS AS FUNCTIONS OF ITS ARGUMENTS. Following the buffer contents through the program:
  the first region leaves the queries, keys and values Q, K, V = h W + b of every node; the second the edge
  projection Ep = e We + be; the stretch before the third region picks K and V at each edge's source and Q at its
  destination and views all four tables as 8 heads of 16; the third region leaves the score, the gate and the weighted
  values of those; the last stretch sums the weighted values and the gates onto the destination nodes and divides. So
  the edge result is the score and the node result is that last stretch applied to the weighted values and the gate,
  each a function of the twelve arguments as launched.
-/
import proofs.«103258_j12987981103701_2_alg».proof.Proof.HostReads
import proofs.«103258_j12987981103701_2_alg».proof.Proof.Region0
import proofs.«103258_j12987981103701_2_alg».proof.Proof.Region1
import proofs.«103258_j12987981103701_2_alg».proof.Proof.Region2
import proofs.«103258_j12987981103701_2_alg».proof.Proof.KernelRun

set_option maxRecDepth 16384

noncomputable section

namespace Cert.KernelIdeal.KernelValue

open Idealize.ShloMosaic Idealize.ShloMosaic.ValueIdx Idealize.ShloMosaic.TcCoe Idealize.SL.Sem Idealize.ShloMosaic.StableHlo
open Cert.KernelIdeal Cert.KernelIdeal.Gen Cert.KernelIdeal.HostReads Cert.Attn

variable (m : (ℓ : Loc nD τ sig) → Buf (Elt Ideal) ℓ) (ρ : Dev nD → PrngReg)

/-- The node projections and the edge projection of the launch memory. -/
def queries (c : Dev nD) : NodeTab.Idx → EReal :=
  dense (R := 50000) (m ((c : Thread nD τ).loc main_arg0)) (m ((c : Thread nD τ).loc main_arg4)) (fun j => m ((c : Thread nD τ).loc main_arg5) (ix1 j))
def keys (c : Dev nD) : NodeTab.Idx → EReal :=
  dense (R := 50000) (m ((c : Thread nD τ).loc main_arg0)) (m ((c : Thread nD τ).loc main_arg6)) (fun j => m ((c : Thread nD τ).loc main_arg7) (ix1 j))
def values (c : Dev nD) : NodeTab.Idx → EReal :=
  dense (R := 50000) (m ((c : Thread nD τ).loc main_arg0)) (m ((c : Thread nD τ).loc main_arg8)) (fun j => m ((c : Thread nD τ).loc main_arg9) (ix1 j))
def edges (c : Dev nD) : EdgeTab.Idx → EReal :=
  dense (R := 800000) (m ((c : Thread nD τ).loc main_arg1)) (m ((c : Thread nD τ).loc main_arg10)) (fun j => m ((c : Thread nD τ).loc main_arg11) (ix1 j))

/-- The score of the launch memory: keys at the sources, queries at the destinations, the edge projection. -/
def scores (c : Dev nD) : EdgeHeads.Idx → EReal :=
  score (keys m c) (queries m c) (edges m c) (wrapIdx (m ((c : Thread nD τ).loc main_arg2))) (wrapIdx (m ((c : Thread nD τ).loc main_arg3)))

/-- The node result of the launch memory. -/
def nodeOut (c : Dev nD) : FVec Ideal S50000x8x16 .f32 :=
  tail (m ((c : Thread nD τ).loc main_arg3))
    (weighted (values m c) (wrapIdx (m ((c : Thread nD τ).loc main_arg2))) (gate (scores m c))) (gate (scores m c))

/-! ## After the first two regions -/

theorem q_after0 (c : Dev nD) : W2 m ρ c (Proc.devRef .tc main_v3_0) = queries m c :=
  (W2_arr m ρ c 7).trans ((Region0.arr_q (V1 m ρ) c).trans (dense_congr (entry0_h m ρ c) (entry0_wq m ρ c) (entry0_bq m ρ c)))
theorem k_after0 (c : Dev nD) : W2 m ρ c (Proc.devRef .tc main_v3_1) = keys m c :=
  (W2_arr m ρ c 8).trans ((Region0.arr_k (V1 m ρ) c).trans (dense_congr (entry0_h m ρ c) (entry0_wk m ρ c) (entry0_bk m ρ c)))
theorem v_after0 (c : Dev nD) : W2 m ρ c (Proc.devRef .tc main_v3_2) = values m c :=
  (W2_arr m ρ c 9).trans ((Region0.arr_v (V1 m ρ) c).trans (dense_congr (entry0_h m ρ c) (entry0_wv m ρ c) (entry0_bv m ρ c)))
theorem ep_after1 (c : Dev nD) : W4 m ρ c (Proc.devRef .tc main_v5) = edges m c :=
  (W4_arr m ρ c 3).trans ((Region1.arr_ep (V3 m ρ) c).trans (dense_congr (entry1_e m ρ c) (entry1_we m ρ c) (entry1_be m ρ c)))

/-! ## After the third region -/

theorem score_entry (c : Dev nD) :
    Region2.scoreOf (Region2.inKs (V5 m ρ) c) (Region2.inQd (V5 m ρ) c) (Region2.inEp (V5 m ρ) c) = scores m c := by
  show Region2.scoreOf (V5 m ρ c main_v13) (V5 m ρ c main_v21) (V5 m ρ c main_v30) = _
  rw [entry2_ks, entry2_qd, entry2_ep, k_after0, q_after0, ep_after1]
  rfl

theorem score_after2 (c : Dev nD) : W6 m ρ c (Proc.devRef .tc main_v31_0) = scores m c :=
  (W6_arr m ρ c 4).trans ((Region2.arr_score (V5 m ρ) c).trans (score_entry m ρ c))

theorem gate_after2 (c : Dev nD) : W6 m ρ c (Proc.devRef .tc main_v31_2) = gate (scores m c) :=
  (W6_arr m ρ c 6).trans ((Region2.arr_gate (V5 m ρ) c).trans (congrArg gate (score_entry m ρ c)))

theorem weighted_after2 (c : Dev nD) :
    W6 m ρ c (Proc.devRef .tc main_v31_1) = weighted (values m c) (wrapIdx (m ((c : Thread nD τ).loc main_arg2))) (gate (scores m c)) := by
  refine (W6_arr m ρ c 5).trans ((Region2.arr_weighted (V5 m ρ) c).trans ?_)
  rw [score_entry]
  show Region2.weightedOf (V5 m ρ c main_v29) _ = _
  rw [entry2_vs, v_after0]
  rfl

/-! ## The results -/

theorem edge_result (c : Dev nD) : W7 m ρ c (Proc.devRef .tc main_v31_0) = scores m c :=
  (last_edge m ρ c).trans (score_after2 m ρ c)

theorem node_result (c : Dev nD) : W7 m ρ c (Proc.devRef .tc main_v41) = nodeOut m c := by
  rw [last_node, weighted_after2, gate_after2]
  rfl

/-- THE KERNEL'S RUN, READ: every weakly fair execution terminates, nothing faulting, with the node result and the
    edge result at those functions of the launch memory and the arguments unchanged. -/
theorem run : θ_run (defs (F := Ideal)) (onTc (τ := τ) (main (F := Ideal))) ⟨m, fun _ => 0, ρ⟩ (fun r => ∀ c : Dev nD,
      r.2.mem ((c.tc : Thread nD τ).loc main_v41) = nodeOut m c
      ∧ r.2.mem ((c.tc : Thread nD τ).loc main_v31_0) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (node_result m ρ c), (h c).2.1.trans (edge_result m ρ c), (h c).2.2⟩)
    (AttnRun.run_results m ρ)

end Cert.KernelIdeal.KernelValue

end
-- ==== Proof.RefValue.lean ====
/-
  THE REFERENCE'S INTERMEDIATE ARRAYS AS THE SPECIFICATION'S FUNCTIONS, over the extended reals.

  The reference computes three dense layers over the node table (keys, queries, values) and one over the edge table,
  reads each as 8 heads of 16, picks per edge the key and value rows of the edge's source node and the query row of its
  destination node, and forms
    * the gated score  K[src] * Q[dst] / 4 * Ep            per (edge, head, coordinate),
    * the gate         exp (clamp (sum of a head's scores)) per (edge, head),
    * the weighted     V[src] * gate                        per (edge, head, coordinate).
  Each theorem below says that the array the reference holds after the corresponding operation is the specification's
  function of the inputs. The only arithmetic law used is that dividing by 4 is multiplying by 1/4 on every extended
  real; a row pick is a gather whose start index is read signed and clamped into [0, 49999]; reading a row of 128
  features as 8 heads of 16 sends (row, head, coordinate) to (row, head * 16 + coordinate).
-/
import proofs.«103258_j12987981103701_2_alg».proof.Proof.Gen.ReferenceIdeal.Read
import proofs.«103258_j12987981103701_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- A ROW PICK READ AT (e, h, d): the gather that collapses the node axis and keeps the head and coordinate axes reads
    the table at the row the index column names for edge e (read signed, clamped into [0, 49999]), same head, same
    coordinate. -/
theorem gather_rows (T : (⟨S50000x8x16, .f32⟩ : BufTy).Contents (Elt Ideal)) (ni : IVec S800000x1 32)
    (e : Fin 800000) (h : Fin 8) (d : Fin 16) :
    Host.gather gather_S50000x8x16_S800000x1_S800000x8x16_12_0_n_n_0_1_1816 T ni (ix3 e h d)
      = T (ix3 (Cert.Attn.rowOf ni e) h d) := by
  unfold Host.gather
  congr 1
  refine Cert.Attn.ix3_of_val _ _ _ _ ?_ ?_ ?_
  · -- the node axis: collapsed, and the one axis the start index map names
    show gather_S50000x8x16_S800000x1_S800000x8x16_12_0_n_n_0_1_1816.start (ix3 e h d) ni 0
        + gather_S50000x8x16_S800000x1_S800000x8x16_12_0_n_n_0_1_1816.batchCoord (ix3 e h d) 0
        + gather_S50000x8x16_S800000x1_S800000x8x16_12_0_n_n_0_1_1816.offCoord (ix3 e h d) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 3) ∈ gather_S50000x8x16_S800000x1_S800000x8x16_12_0_n_n_0_1_1816.startIndexMap from
      List.mem_singleton.mpr rfl)]
    have hsi : gather_S50000x8x16_S800000x1_S800000x8x16_12_0_n_n_0_1_1816.siIdx (ix3 e h d)
        ⟨List.idxOf (0 : Fin 3) gather_S50000x8x16_S800000x1_S800000x8x16_12_0_n_n_0_1_1816.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- axis 1 is an offset axis: the start and batching parts vanish and the offset is the result's coordinate
    show gather_S50000x8x16_S800000x1_S800000x8x16_12_0_n_n_0_1_1816.start (ix3 e h d) ni 1
        + gather_S50000x8x16_S800000x1_S800000x8x16_12_0_n_n_0_1_1816.batchCoord (ix3 e h d) 1
        + gather_S50000x8x16_S800000x1_S800000x8x16_12_0_n_n_0_1_1816.offCoord (ix3 e h d) 1 = h.val
    rw [GatherDims.batchCoord_eq_zero _ _ _ List.not_mem_nil]
    unfold GatherDims.start
    rw [dif_neg (show ¬(1 : Fin 3) ∈ gather_S50000x8x16_S800000x1_S800000x8x16_12_0_n_n_0_1_1816.startIndexMap by decide)]
    unfold GatherDims.offCoord
    rw [dif_pos (show (1 : Fin 3) ∈ gather_S50000x8x16_S800000x1_S800000x8x16_12_0_n_n_0_1_1816.sKept by decide)]
    simp only [Nat.zero_add, Nat.add_zero]
    rfl
  · -- axis 2 is an offset axis: the start and batching parts vanish and the offset is the result's coordinate
    show gather_S50000x8x16_S800000x1_S800000x8x16_12_0_n_n_0_1_1816.start (ix3 e h d) ni 2
        + gather_S50000x8x16_S800000x1_S800000x8x16_12_0_n_n_0_1_1816.batchCoord (ix3 e h d) 2
        + gather_S50000x8x16_S800000x1_S800000x8x16_12_0_n_n_0_1_1816.offCoord (ix3 e h d) 2 = d.val
    rw [GatherDims.batchCoord_eq_zero _ _ _ List.not_mem_nil]
    unfold GatherDims.start
    rw [dif_neg (show ¬(2 : Fin 3) ∈ gather_S50000x8x16_S800000x1_S800000x8x16_12_0_n_n_0_1_1816.startIndexMap by decide)]
    unfold GatherDims.offCoord
    rw [dif_pos (show (2 : Fin 3) ∈ gather_S50000x8x16_S800000x1_S800000x8x16_12_0_n_n_0_1_1816.sKept by decide)]
    simp only [Nat.zero_add, Nat.add_zero]
    rfl

/-! ## Reading a row of 128 features as 8 heads of 16

  A reshape of [R, 128] to [R, 8, 16] keeps the row-major position: (r, h, d) sits at position (r * 8 + h) * 16 + d, which
  is row r, feature h * 16 + d. -/

theorem lane_idx4 (r : Fin 50000) (hh : Fin 8) (d : Fin 16) :
    Read.idx_main_v4 (ix3 r hh d) = ix2 r (Cert.Attn.lane hh d) :=
  Cert.Dense.ix2_of_val _ r (Cert.Attn.lane hh d)
    (by show ((r.val * 8 + hh.val) * 16 + d.val) / 128 = r.val
        have := hh.isLt; have := d.isLt; omega)
    (by show ((r.val * 8 + hh.val) * 16 + d.val) % 128 = hh.val * 16 + d.val
        have := hh.isLt; have := d.isLt; omega)

theorem lane_idx9 (r : Fin 50000) (hh : Fin 8) (d : Fin 16) :
    Read.idx_main_v9 (ix3 r hh d) = ix2 r (Cert.Attn.lane hh d) :=
  Cert.Dense.ix2_of_val _ r (Cert.Attn.lane hh d)
    (by show ((r.val * 8 + hh.val) * 16 + d.val) / 128 = r.val
        have := hh.isLt; have := d.isLt; omega)
    (by show ((r.val * 8 + hh.val) * 16 + d.val) % 128 = hh.val * 16 + d.val
        have := hh.isLt; have := d.isLt; omega)

theorem lane_idx14 (r : Fin 50000) (hh : Fin 8) (d : Fin 16) :
    Read.idx_main_v14 (ix3 r hh d) = ix2 r (Cert.Attn.lane hh d) :=
  Cert.Dense.ix2_of_val _ r (Cert.Attn.lane hh d)
    (by show ((r.val * 8 + hh.val) * 16 + d.val) / 128 = r.val
        have := hh.isLt; have := d.isLt; omega)
    (by show ((r.val * 8 + hh.val) * 16 + d.val) % 128 = hh.val * 16 + d.val
        have := hh.isLt; have := d.isLt; omega)

theorem lane_idx19 (r : Fin 800000) (hh : Fin 8) (d : Fin 16) :
    Read.idx_main_v19 (ix3 r hh d) = ix2 r (Cert.Attn.lane hh d) :=
  Cert.Dense.ix2_of_val _ r (Cert.Attn.lane hh d)
    (by show ((r.val * 8 + hh.val) * 16 + d.val) / 128 = r.val
        have := hh.isLt; have := d.isLt; omega)
    (by show ((r.val * 8 + hh.val) * 16 + d.val) % 128 = hh.val * 16 + d.val
        have := hh.isLt; have := d.isLt; omega)

/-! ## The four dense layers, read at (row, feature) -/

/-- The query layer h · Wq + bq at (p, j). -/
theorem queries_at (x0 : (⟨S50000x128, .f32⟩ : BufTy).Contents (Elt Ideal)) (W : (⟨S128x128, .f32⟩ : BufTy).Contents (Elt Ideal)) (b : (⟨S128, .f32⟩ : BufTy).Contents (Elt Ideal)) (p : Fin 50000) (j : Fin 128) :
    Read.val_main_v3 (F := Ideal) x0 W b (ix2 p j)
      = Cert.Attn.dense (R := 50000) x0 W (fun j => b (ix1 j)) (ix2 p j) :=
  Cert.Dense.host_affine (R := 50000) (K := 128) (N := 128) dot_S50000x128_S128x128_S50000x128_1_0_0_1_n_n rfl rfl
    Read.lhs_main_v0_0 Read.lhs_main_v0_1 Read.rhs_main_v0_0 Read.rhs_main_v0_1 x0 W b
    bcast_S128_S1x128_1 bcast_S1x128_S50000x128_0_1 p j

/-- The key layer h · Wk + bk at (p, j). -/
theorem keys_at (x0 : (⟨S50000x128, .f32⟩ : BufTy).Contents (Elt Ideal)) (W : (⟨S128x128, .f32⟩ : BufTy).Contents (Elt Ideal)) (b : (⟨S128, .f32⟩ : BufTy).Contents (Elt Ideal)) (p : Fin 50000) (j : Fin 128) :
    Read.val_main_v8 (F := Ideal) x0 W b (ix2 p j)
      = Cert.Attn.dense (R := 50000) x0 W (fun j => b (ix1 j)) (ix2 p j) :=
  Cert.Dense.host_affine (R := 50000) (K := 128) (N := 128) dot_S50000x128_S128x128_S50000x128_1_0_0_1_n_n rfl rfl
    Read.lhs_main_v5_0 Read.lhs_main_v5_1 Read.rhs_main_v5_0 Read.rhs_main_v5_1 x0 W b
    bcast_S128_S1x128_1 bcast_S1x128_S50000x128_0_1 p j

/-- The value layer h · Wv + bv at (p, j). -/
theorem values_at (x0 : (⟨S50000x128, .f32⟩ : BufTy).Contents (Elt Ideal)) (W : (⟨S128x128, .f32⟩ : BufTy).Contents (Elt Ideal)) (b : (⟨S128, .f32⟩ : BufTy).Contents (Elt Ideal)) (p : Fin 50000) (j : Fin 128) :
    Read.val_main_v13 (F := Ideal) x0 W b (ix2 p j)
      = Cert.Attn.dense (R := 50000) x0 W (fun j => b (ix1 j)) (ix2 p j) :=
  Cert.Dense.host_affine (R := 50000) (K := 128) (N := 128) dot_S50000x128_S128x128_S50000x128_1_0_0_1_n_n rfl rfl
    Read.lhs_main_v10_0 Read.lhs_main_v10_1 Read.rhs_main_v10_0 Read.rhs_main_v10_1 x0 W b
    bcast_S128_S1x128_1 bcast_S1x128_S50000x128_0_1 p j

/-- The edge layer e · We + be at (p, j). -/
theorem edges_at (x1 : (⟨S800000x128, .f32⟩ : BufTy).Contents (Elt Ideal)) (W : (⟨S128x128, .f32⟩ : BufTy).Contents (Elt Ideal)) (b : (⟨S128, .f32⟩ : BufTy).Contents (Elt Ideal)) (p : Fin 800000) (j : Fin 128) :
    Read.val_main_v18 (F := Ideal) x1 W b (ix2 p j)
      = Cert.Attn.dense (R := 800000) x1 W (fun j => b (ix1 j)) (ix2 p j) :=
  Cert.Dense.host_affine (R := 800000) (K := 128) (N := 128) dot_S800000x128_S128x128_S800000x128_1_0_0_1_n_n rfl rfl
    Read.lhs_main_v15_0 Read.lhs_main_v15_1 Read.rhs_main_v15_0 Read.rhs_main_v15_1 x1 W b
    bcast_S128_S1x128_1 bcast_S1x128_S800000x128_0_1 p j

/-! ## The picked rows and the edge layer, read as heads -/

/-- K[src] at (e, h, d): the key layer's row of the edge's source node, head h, coordinate d. -/
theorem keys_src (x0 : (⟨S50000x128, .f32⟩ : BufTy).Contents (Elt Ideal)) (x2 : (⟨S800000, .i32⟩ : BufTy).Contents (Elt Ideal)) (x6 : (⟨S128x128, .f32⟩ : BufTy).Contents (Elt Ideal)) (x7 : (⟨S128, .f32⟩ : BufTy).Contents (Elt Ideal))
    (e : Fin 800000) (hh : Fin 8) (d : Fin 16) :
    Read.val_main_v26 (F := Ideal) x0 x2 x6 x7 (ix3 e hh d)
      = Cert.Attn.pick (Cert.Attn.dense (R := 50000) x0 x6 (fun j => x7 (ix1 j))) (Read.val_main_v25 (F := Ideal) x2) (ix3 e hh d) := by
  unfold Read.val_main_v26
  rw [gather_rows, Read.val_main_v9_apply, lane_idx9, keys_at]
  rfl

/-- Q[dst] at (e, h, d): the query layer's row of the edge's destination node, head h, coordinate d. -/
theorem queries_dst (x0 : (⟨S50000x128, .f32⟩ : BufTy).Contents (Elt Ideal)) (x3 : (⟨S800000, .i32⟩ : BufTy).Contents (Elt Ideal)) (x4 : (⟨S128x128, .f32⟩ : BufTy).Contents (Elt Ideal)) (x5 : (⟨S128, .f32⟩ : BufTy).Contents (Elt Ideal))
    (e : Fin 800000) (hh : Fin 8) (d : Fin 16) :
    Read.val_main_v33 (F := Ideal) x0 x3 x4 x5 (ix3 e hh d)
      = Cert.Attn.pick (Cert.Attn.dense (R := 50000) x0 x4 (fun j => x5 (ix1 j))) (Read.val_main_v32 (F := Ideal) x3) (ix3 e hh d) := by
  unfold Read.val_main_v33
  rw [gather_rows, Read.val_main_v4_apply, lane_idx4, queries_at]
  rfl

/-- Ep at (e, h, d): the edge layer's row e, head h, coordinate d. -/
theorem edges_heads (x1 : (⟨S800000x128, .f32⟩ : BufTy).Contents (Elt Ideal)) (x10 : (⟨S128x128, .f32⟩ : BufTy).Contents (Elt Ideal)) (x11 : (⟨S128, .f32⟩ : BufTy).Contents (Elt Ideal))
    (e : Fin 800000) (hh : Fin 8) (d : Fin 16) :
    Read.val_main_v19 (F := Ideal) x1 x10 x11 (ix3 e hh d)
      = Cert.Attn.heads (Cert.Attn.dense (R := 800000) x1 x10 (fun j => x11 (ix1 j))) (ix3 e hh d) := by
  rw [Read.val_main_v19_apply, lane_idx19, edges_at]
  rfl

/-- The divisor: the word for 4 at every index. -/
theorem four_at (i : S800000x8x16.Idx) :
    Read.val_main_v35 (F := Ideal) i = Ideal.ofBits .f32 0x40800000#32 := by
  rw [Read.val_main_v35_apply]
  rfl

/-! ## The gated score -/

/-- THE SCORE: the reference's K[src] * Q[dst] / 4 * Ep is the specification's score of the three dense layers and the two
    normalised index columns; dividing by 4 is multiplying by 1/4. -/
theorem score_ref (x0 : (⟨S50000x128, .f32⟩ : BufTy).Contents (Elt Ideal)) (x1 : (⟨S800000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x10 : (⟨S128x128, .f32⟩ : BufTy).Contents (Elt Ideal)) (x11 : (⟨S128, .f32⟩ : BufTy).Contents (Elt Ideal)) :
    Read.val_main_v37 (F := Ideal) x0 x1 x2 x3 x4 x5 x6 x7 x10 x11
      = Cert.Attn.score (Cert.Attn.dense (R := 50000) x0 x6 (fun j => x7 (ix1 j)))
        (Cert.Attn.dense (R := 50000) x0 x4 (fun j => x5 (ix1 j)))
        (Cert.Attn.dense (R := 800000) x1 x10 (fun j => x11 (ix1 j)))
        (Read.val_main_v25 (F := Ideal) x2) (Read.val_main_v32 (F := Ideal) x3) := by
  funext i
  obtain ⟨e, hh, d, rfl⟩ : ∃ (e : Fin 800000) (hh : Fin 8) (d : Fin 16), i = ix3 e hh d := ⟨i 0, i 1, i 2, eq_ix3 i⟩
  rw [Read.val_main_v37_apply, Read.val_main_v36_apply, Read.val_main_v34_apply, keys_src, queries_dst, edges_heads, four_at]
  exact congrArg (· * Cert.Attn.heads (Cert.Attn.dense (R := 800000) x1 x10 (fun j => x11 (ix1 j))) (ix3 e hh d))
    (Cert.Attn.quarter _)

/-! ## The gate -/

/-- The index the head sum reads at summand k, seen from (e, h, 0) of the kept-axis array: (e, h, k). -/
theorem sum_idx (e : Fin 800000) (hh : Fin 8) (z : Fin 1) (k : Fin 16) :
    Read.idx_main_v38 (Read.idx_main_v39 (ix3 e hh z)) k = ix3 e hh k :=
  Cert.Attn.ix3_of_val _ e hh k rfl rfl rfl

/-- THE GATE: the reference's exp (clamp (sum over a head's 16 coordinates of the score)), kept as an [E, 8, 1] array, is
    the specification's gate of the score. The sum starts from the zero word, which is 0; the clamp is a maximum against
    the word for -5 followed by a minimum against the word for 5. -/
theorem gate_ref (x0 : (⟨S50000x128, .f32⟩ : BufTy).Contents (Elt Ideal)) (x1 : (⟨S800000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x10 : (⟨S128x128, .f32⟩ : BufTy).Contents (Elt Ideal)) (x11 : (⟨S128, .f32⟩ : BufTy).Contents (Elt Ideal)) :
    Read.val_main_v41 (F := Ideal) x0 x1 x2 x3 x4 x5 x6 x7 x10 x11
      = Cert.Attn.gate (Cert.Attn.score (Cert.Attn.dense (R := 50000) x0 x6 (fun j => x7 (ix1 j)))
        (Cert.Attn.dense (R := 50000) x0 x4 (fun j => x5 (ix1 j)))
        (Cert.Attn.dense (R := 800000) x1 x10 (fun j => x11 (ix1 j)))
        (Read.val_main_v25 (F := Ideal) x2) (Read.val_main_v32 (F := Ideal) x3)) := by
  funext i
  obtain ⟨e, hh, z, rfl⟩ : ∃ (e : Fin 800000) (hh : Fin 8) (z : Fin 1), i = ix3 e hh z := ⟨i 0, i 1, i 2, eq_ix3 i⟩
  rw [Read.val_main_v41_apply, Read.val_main_v40_apply, Read.val_main_call0_v2_apply, Read.val_main_v39_apply,
    Read.val_main_v38_apply, score_ref]
  have hsum : ∀ S : S800000x8x16.Idx → EReal,
      (∑ k : Fin 16, S (Read.idx_main_v38 (Read.idx_main_v39 (ix3 e hh z)) k)) = ∑ k : Fin 16, S (ix3 e hh k) :=
    fun S => Finset.sum_congr rfl fun k _ => congrArg S (sum_idx e hh z k)
  have h5 : Read.val_main_call0_v4 (F := Ideal) (ix3 e hh z) = Ideal.ofBits .f32 0x40A00000#32 := by
    rw [Read.val_main_call0_v4_apply]; rfl
  have hm5 : Read.val_main_call0_v1 (F := Ideal) (ix3 e hh z) = Ideal.ofBits .f32 0xC0A00000#32 := by
    rw [Read.val_main_call0_v1_apply]; rfl
  have h0 : Read.val_main_cst_3 (F := Ideal) (Shape.Idx.first h_S_) = 0 := Ideal.ofBits_zero_f32
  rw [hsum, h5, hm5, h0, zero_add]
  rfl

/-! ## The weighted values -/

/-- The source column is normalised twice by the same operations: the two index columns are one. -/
theorem src_twice (x2 : (⟨S800000, .i32⟩ : BufTy).Contents (Elt Ideal)) :
    Read.val_main_v47 (F := Ideal) x2 = Read.val_main_v25 (F := Ideal) x2 := rfl

/-- The gate broadcast along the coordinate axis reads (e, h, d) at (e, h, 0). -/
theorem gate_idx (e : Fin 800000) (hh : Fin 8) (d : Fin 16) :
    Read.idx_main_v49 (ix3 e hh d) = ix3 e hh (0 : Fin 1) :=
  Cert.Attn.ix3_of_val _ e hh (0 : Fin 1) rfl rfl rfl

/-- V[src] at (e, h, d): the value layer's row of the edge's source node, head h, coordinate d. -/
theorem values_src (x0 : (⟨S50000x128, .f32⟩ : BufTy).Contents (Elt Ideal)) (x2 : (⟨S800000, .i32⟩ : BufTy).Contents (Elt Ideal)) (x8 : (⟨S128x128, .f32⟩ : BufTy).Contents (Elt Ideal)) (x9 : (⟨S128, .f32⟩ : BufTy).Contents (Elt Ideal))
    (e : Fin 800000) (hh : Fin 8) (d : Fin 16) :
    Read.val_main_v48 (F := Ideal) x0 x2 x8 x9 (ix3 e hh d)
      = Cert.Attn.pick (Cert.Attn.dense (R := 50000) x0 x8 (fun j => x9 (ix1 j))) (Read.val_main_v25 (F := Ideal) x2) (ix3 e hh d) := by
  unfold Read.val_main_v48
  rw [gather_rows, Read.val_main_v14_apply, lane_idx14, values_at, src_twice]
  rfl

/-- THE WEIGHTED VALUES: the reference's V[src] * gate (the gate repeated along the 16 coordinates of its head) is the
    specification's weighted of the value layer, the source column and the gate. -/
theorem weighted_ref (x0 : (⟨S50000x128, .f32⟩ : BufTy).Contents (Elt Ideal)) (x1 : (⟨S800000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    Read.val_main_v50 (F := Ideal) x0 x1 x2 x3 x4 x5 x6 x7 x8 x9 x10 x11
      = Cert.Attn.weighted (Cert.Attn.dense (R := 50000) x0 x8 (fun j => x9 (ix1 j))) (Read.val_main_v25 (F := Ideal) x2)
        (Cert.Attn.gate (Cert.Attn.score (Cert.Attn.dense (R := 50000) x0 x6 (fun j => x7 (ix1 j)))
        (Cert.Attn.dense (R := 50000) x0 x4 (fun j => x5 (ix1 j)))
        (Cert.Attn.dense (R := 800000) x1 x10 (fun j => x11 (ix1 j)))
        (Read.val_main_v25 (F := Ideal) x2) (Read.val_main_v32 (F := Ideal) x3))) := by
  funext i
  obtain ⟨e, hh, d, rfl⟩ : ∃ (e : Fin 800000) (hh : Fin 8) (d : Fin 16), i = ix3 e hh d := ⟨i 0, i 1, i 2, eq_ix3 i⟩
  rw [Read.val_main_v50_apply, Read.val_main_v49_apply, gate_idx, gate_ref, values_src]
  rfl

end Cert.ReferenceIdeal.RefValue

end
-- ==== Proof.RefRun.lean ====
/-
  THE REFERENCE'S RUN, WITH ITS TWO RESULTS STATED THROUGH THE SPECIFICATION.

  The reference returns the node output and the gated score. The node output is the last stretch of the program applied
  to three arrays: the destination column, the weighted values V[src] * gate and the gate. That stretch — refTail — adds
  each edge's weighted values into the row of the edge's destination node (starting from zeros), adds each edge's gate
  into the same row of a second table (starting from zeros), adds the word for 1e-6 to the second table, repeats it along
  the 16 coordinates of a head, and divides the first table by it. It is kept as one opaque function of its three
  arguments: what matters is only WHICH arrays it is applied to, and those are the specification's weighted values and
  gate of the argument arrays. The gated score is the specification's score of the argument arrays.
-/
import proofs.«103258_j12987981103701_2_alg».proof.Proof.Gen.ReferenceIdeal.Read
import proofs.«103258_j12987981103701_2_alg».proof.Proof.RefValue
import proofs.«103258_j12987981103701_2_alg».proof.Proof.Spec

noncomputable section

namespace Cert.ReferenceIdeal.RefRun

open Cert.ReferenceIdeal Cert.ReferenceIdeal.Gen Idealize.ShloMosaic Idealize.ShloMosaic.TcCoe Idealize.SL.Sem
open Idealize.ShloMosaic.ValueIdx

/-- The reference's last stretch as one function of the destination column, the weighted values and the gate:
    (scatter-add of the weighted values by destination into zeros) / (scatter-add of the gate by destination into zeros,
    plus the word for 1e-6, repeated along a head's 16 coordinates). -/
def refTail (dst : IVec S800000 32) (wv : FVec Ideal S800000x8x16 .f32) (g : FVec Ideal S800000x8x1 .f32) :
    FVec Ideal S50000x8x16 .f32 :=
  Host.divf (F := Ideal)
    (Host.scatterAdd (F := Ideal) scatter_S50000x8x16_S800000x1_S800000x8x16_12_0_0_1
      (broadcastInDim S50000x8x16 ![] bcast_S_S50000x8x16 (constant (F := Ideal) S_ .f32 0x00000000#32))
      (broadcastInDim S800000x1 ![0] bcast_S800000_S800000x1_0 dst) wv)
    (broadcastInDim S50000x8x16 ![0, 1, 2] bcast_S50000x8x1_S50000x8x16_0_1_2
      (addf
        (Host.scatterAdd (F := Ideal) scatter_S50000x8x1_S800000x1_S800000x8x1_12_0_0_1
          (broadcastInDim S50000x8x1 ![] bcast_S_S50000x8x1 (constant (F := Ideal) S_ .f32 0x00000000#32))
          (broadcastInDim S800000x1 ![0] bcast_S800000_S800000x1_0 dst) g)
        (broadcastInDim S50000x8x1 ![] bcast_S_S50000x8x1 (constant (F := Ideal) S_ .f32 0x358637BD#32))))

/-- THE NODE OUTPUT is the last stretch applied to the destination column, the weighted values and the gate: the ten
    operations after the weighted values, composed. -/
theorem node_ref (x0 : (⟨S50000x128, .f32⟩ : BufTy).Contents (Elt Ideal)) (x1 : (⟨S800000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    Read.val_main_v60 (F := Ideal) x0 x1 x2 x3 x4 x5 x6 x7 x8 x9 x10 x11
      = refTail x3 (Read.val_main_v50 (F := Ideal) x0 x1 x2 x3 x4 x5 x6 x7 x8 x9 x10 x11)
          (Read.val_main_v41 (F := Ideal) x0 x1 x2 x3 x4 x5 x6 x7 x10 x11) := rfl

/-! ## The specification's arrays of a memory's arguments -/

/-- The gated score of the argument arrays device c holds in memory m: keys from (h, Wk, bk), queries from (h, Wq, bq),
    the edge layer from (e, We, be), the two index columns normalised as the reference normalises them. -/
def specScore (m : (ℓ : Loc nD τ sig) → Buf (Elt Ideal) ℓ) (c : Dev nD) : FVec Ideal S800000x8x16 .f32 :=
  Cert.Attn.score
    (Cert.Attn.dense (R := 50000) (m ((c.tc : Thread nD τ).loc main_arg0)) (m ((c.tc : Thread nD τ).loc main_arg6)) (fun j => (m ((c.tc : Thread nD τ).loc main_arg7)) (ix1 j)))
    (Cert.Attn.dense (R := 50000) (m ((c.tc : Thread nD τ).loc main_arg0)) (m ((c.tc : Thread nD τ).loc main_arg4)) (fun j => (m ((c.tc : Thread nD τ).loc main_arg5)) (ix1 j)))
    (Cert.Attn.dense (R := 800000) (m ((c.tc : Thread nD τ).loc main_arg1)) (m ((c.tc : Thread nD τ).loc main_arg10)) (fun j => (m ((c.tc : Thread nD τ).loc main_arg11)) (ix1 j)))
    (Read.val_main_v25 (F := Ideal) (m ((c.tc : Thread nD τ).loc main_arg2))) (Read.val_main_v32 (F := Ideal) (m ((c.tc : Thread nD τ).loc main_arg3)))

/-- The value layer of the argument arrays: values from (h, Wv, bv). -/
def specValues (m : (ℓ : Loc nD τ sig) → Buf (Elt Ideal) ℓ) (c : Dev nD) : FVec Ideal S50000x128 .f32 :=
  Cert.Attn.dense (R := 50000) (m ((c.tc : Thread nD τ).loc main_arg0)) (m ((c.tc : Thread nD τ).loc main_arg8)) (fun j => (m ((c.tc : Thread nD τ).loc main_arg9)) (ix1 j))

/-- The normalised source column of the argument arrays. -/
def specSrc (m : (ℓ : Loc nD τ sig) → Buf (Elt Ideal) ℓ) (c : Dev nD) : IVec S800000x1 32 :=
  Read.val_main_v25 (F := Ideal) (m ((c.tc : Thread nD τ).loc main_arg2))

/-! ## The run -/

/-- The node output's composed term is the last stretch applied to the specification's weighted values and gate. -/
theorem node_spec (m : (ℓ : Loc nD τ sig) → Buf (Elt Ideal) ℓ) (c : Dev nD) :
    Cert.ReferenceIdeal.Value.res_main_v60 m c
      = refTail (m ((c.tc : Thread nD τ).loc main_arg3))
          (Cert.Attn.weighted (specValues m c) (specSrc m c) (Cert.Attn.gate (specScore m c)))
          (Cert.Attn.gate (specScore m c)) := by
  rw [Read.val_main_v60_eq, node_ref, RefValue.weighted_ref, RefValue.gate_ref]
  rfl

/-- THE REFERENCE'S RUN: every weakly fair execution terminates with the node output at the last stretch of the
    specification's weighted values and gate, the gated score at the specification's score, and the twelve arguments
    unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60)
          = refTail (m ((c.tc : Thread nD τ).loc main_arg3))
              (Cert.Attn.weighted (specValues m c) (specSrc m c) (Cert.Attn.gate (specScore m c)))
              (Cert.Attn.gate (specScore m c))
      ∧ r.2.mem ((c.tc : Thread nD τ).loc main_v37) = specScore m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun r h c => ⟨(h c).1.trans (node_spec m c),
      (h c).2.1.trans (RefValue.score_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))),
      (h c).2.2⟩)
    (Cert.ReferenceIdeal.Value.run (F := Ideal) m ρ)

end Cert.ReferenceIdeal.RefRun

end
-- ==== Proof.lean ====
/-
  ONE GRAPH-ATTENTION LAYER, kernel against reference, over the extended reals.

  Both programs take node features h [50000, 128], edge features e [800000, 128], source and destination indices and
  four weight matrices with biases, and return, per node, the attention-weighted mean of the values of its incoming edges
  [50000, 8, 16] and, per edge, the gated score [800000, 8, 16]:
      Q, K, V = h W + b,   Ep = e We + be,
      score   = K[src] * Q[dst] * c * Ep               (c = 1/4: the kernel multiplies by 1/4, the reference divides by 4),
      gate    = exp (clamp (sum of a head's 16 scores) to [-5, 5]),
      node    = (sum over edges into the node of V[src] * gate) / (sum over those edges of gate + 1e-6).
  The kernel computes Q, K, V and Ep in two tiled regions, gathers rows on the host, computes score, gate and V[src] * gate
  in a third tiled region and leaves the two sums and the quotient to the host; the reference is the same formula in
  plain array operations. Read on the extended reals, rounding an operand to bf16 is the identity, a matrix-unit product
  into a zero accumulator is the plain sum of products, and a tiling is a restriction of one whole-array function, so the
  kernel's intermediate arrays ARE the formula's; the reference's are too, read operation by operation; x * (1/4) = x / 4
  on every extended real, infinities included; and the last stretch (the two scatter-adds and the quotient) is the same
  term in both programs, applied to equal arrays. Nothing needs the inputs to be finite.

  The three frames: the kernel's at both instances are its generated frame certificates; the reference's is its run with
  the results forgotten. The idealization rewrote no operation, so there is nothing to preserve.
-/
import proofs.«103258_j12987981103701_2_alg».proof.Defs
import proofs.«103258_j12987981103701_2_alg».proof.Proof.Gen.Kernel
import proofs.«103258_j12987981103701_2_alg».proof.Proof.Gen.Kernel.Skeleton
import proofs.«103258_j12987981103701_2_alg».proof.Proof.Gen.Kernel.Launch
import proofs.«103258_j12987981103701_2_alg».proof.Proof.Gen.Kernel.Points
import proofs.«103258_j12987981103701_2_alg».proof.Proof.Gen.Kernel.Frame
import proofs.«103258_j12987981103701_2_alg».proof.Proof.Gen.KernelIdeal
import proofs.«103258_j12987981103701_2_alg».proof.Proof.Gen.KernelIdeal.Skeleton
import proofs.«103258_j12987981103701_2_alg».proof.Proof.Gen.KernelIdeal.Launch
import proofs.«103258_j12987981103701_2_alg».proof.Proof.Gen.KernelIdeal.Points
import proofs.«103258_j12987981103701_2_alg».proof.Proof.Gen.KernelIdeal.Frame
import proofs.«103258_j12987981103701_2_alg».proof.Proof.Gen.ReferenceIdeal
import proofs.«103258_j12987981103701_2_alg».proof.Proof.Gen.Pre_finite_inputs
import proofs.«103258_j12987981103701_2_alg».proof.Proof.Gen.ReferenceIdeal.Run
import proofs.«103258_j12987981103701_2_alg».proof.Proof.Gen.ReferenceIdeal.Read
import proofs.«103258_j12987981103701_2_alg».proof.Proof.KernelValue
import proofs.«103258_j12987981103701_2_alg».proof.Proof.RefRun
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its two results forgotten. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the twelve arguments both programs end with the node result and the edge result at one
    and the same function of those arguments: the kernel's run read through its three regions, the reference's read
    operation by operation, and the two descriptions the same term once the arguments are identified. -/
theorem algebraic : Cert.algebraic_KernelIdeal_ReferenceIdeal := by
  intro m ρ m' ρ' _ hagree
  refine ⟨fun c => Cert.KernelIdeal.KernelValue.nodeOut m c, fun c => Cert.KernelIdeal.KernelValue.scores m c,
    Cert.KernelIdeal.KernelValue.run m ρ, ?_⟩
  refine (θ_run Cert.ReferenceIdeal.defs _ _).mono (fun r h c => ⟨(h c).1.trans ?_, (h c).2.1.trans ?_, (h c).2.2⟩)
    (Cert.ReferenceIdeal.RefRun.run_spec m' ρ')
  · obtain ⟨a0, a1, a2, a3, a4, a5, a6, a7, a8, a9, a10, a11⟩ := hagree c
    unfold Cert.ReferenceIdeal.RefRun.specScore Cert.ReferenceIdeal.RefRun.specValues Cert.ReferenceIdeal.RefRun.specSrc
    rw [a0, a1, a2, a3, a4, a5, a6, a7, a8, a9, a10, a11]
    rfl
  · obtain ⟨a0, a1, a2, a3, a4, a5, a6, a7, a8, a9, a10, a11⟩ := hagree c
    unfold Cert.ReferenceIdeal.RefRun.specScore
    rw [a0, a1, a2, a3, a4, a5, a6, a7, a10, a11]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
